-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x20000x256 : Shape := ⟨3, ![3, 20000, 256]⟩
abbrev S2x320000 : Shape := ⟨2, ![2, 320000]⟩
abbrev S320000 : Shape := ⟨1, ![320000]⟩
abbrev S3x256x256 : Shape := ⟨3, ![3, 256, 256]⟩
abbrev S_ : Shape := ⟨0, ![]⟩

class Facts : Prop where
  bcast_S_S3x20000x256 : S_.BroadcastsInDim S3x20000x256 (![] : Fin 0 → Fin S3x20000x256.rank)
  reducesTo_S3x20000x256_S_d0_1_2 : S3x20000x256.ReducesTo [0, 1, 2] S_
  h_S_ : 0 < S_.numel
  bcast_S_S320000 : S_.BroadcastsInDim S320000 (![] : Fin 0 → Fin S320000.rank)
  reducesTo_S320000_S_d0 : S320000.ReducesTo [0] S_
  bcast_S_S3x256x256 : S_.BroadcastsInDim S3x256x256 (![] : Fin 0 → Fin S3x256x256.rank)
  reducesTo_S3x256x256_S_d0_1_2 : S3x256x256.ReducesTo [0, 1, 2] S_

variable [Facts]

def fn_part1 {F : FTy → Type} [FloatOps F] (main_arg5 : FVec F S3x256x256 .f32) (main_v13 : IVec S_ 1) (main_v16 : IVec S3x256x256 1) : IVec S_ 1 :=
  let main_c_5 : IVec S_ 1 := constantI S_ 1 1#1
  let main_v17 : IVec S_ 1 := (fun x v => Host.reduce IntOp.andi x v reducesTo_S3x256x256_S_d0_1_2 h_S_) main_v16 main_c_5
  let main_v18 : IVec S_ 1 := andi main_v13 main_v17
  let main_v19 : FVec F S3x256x256 .f32 := Host.absf main_arg5
  let main_cst_6 : FVec F S_ .f32 := constant S_ .f32 0x7F800000#32
  let main_v20 : FVec F S3x256x256 .f32 := broadcastInDim S3x256x256 ![] bcast_S_S3x256x256 main_cst_6
  let main_v21 : IVec S3x256x256 1 := cmpf .olt main_v19 main_v20
  let main_c_7 : IVec S_ 1 := constantI S_ 1 1#1
  let main_v22 : IVec S_ 1 := (fun x v => Host.reduce IntOp.andi x v reducesTo_S3x256x256_S_d0_1_2 h_S_) main_v21 main_c_7
  let main_v23 : IVec S_ 1 := andi main_v18 main_v22
  main_v23

def fn {F : FTy → Type} [FloatOps F] (main_arg0 : FVec F S3x20000x256 .f32) (main_arg1 : IVec S2x320000 32) (main_arg2 : FVec F S320000 .f32) (main_arg3 : FVec F S3x256x256 .f32) (main_arg4 : FVec F S3x256x256 .f32) (main_arg5 : FVec F S3x256x256 .f32) : IVec S_ 1 :=
  let main_v0 : FVec F S3x20000x256 .f32 := Host.absf main_arg0
  let main_cst : FVec F S_ .f32 := constant S_ .f32 0x7F800000#32
  let main_v1 : FVec F S3x20000x256 .f32 := broadcastInDim S3x20000x256 ![] bcast_S_S3x20000x256 main_cst
  let main_v2 : IVec S3x20000x256 1 := cmpf .olt main_v0 main_v1
  let main_c : IVec S_ 1 := constantI S_ 1 1#1
  let main_v3 : IVec S_ 1 := (fun x v => Host.reduce IntOp.andi x v reducesTo_S3x20000x256_S_d0_1_2 h_S_) main_v2 main_c
  let main_v4 : FVec F S320000 .f32 := Host.absf main_arg2
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S3x256x256 .f32 := Host.absf main_arg3
  let main_cst_2 : FVec F S_ .f32 := constant S_ .f32 0x7F800000#32
  let main_v10 : FVec F S3x256x256 .f32 := broadcastInDim S3x256x256 ![] bcast_S_S3x256x256 main_cst_2
  let main_v11 : IVec S3x256x256 1 := cmpf .olt main_v9 main_v10
  let main_c_3 : IVec S_ 1 := constantI S_ 1 1#1
  let main_v12 : IVec S_ 1 := (fun x v => Host.reduce IntOp.andi x v reducesTo_S3x256x256_S_d0_1_2 h_S_) main_v11 main_c_3
  let main_v13 : IVec S_ 1 := andi main_v8 main_v12
  let main_v14 : FVec F S3x256x256 .f32 := Host.absf main_arg4
  let main_cst_4 : FVec F S_ .f32 := constant S_ .f32 0x7F800000#32
  let main_v15 : FVec F S3x256x256 .f32 := broadcastInDim S3x256x256 ![] bcast_S_S3x256x256 main_cst_4
  let main_v16 : IVec S3x256x256 1 := cmpf .olt main_v14 main_v15
  fn_part1 (F := F) main_arg5 main_v13 main_v16
-- ==== Kernel.lean ====
abbrev S3x20000x256 : Shape := ⟨3, ![3, 20000, 256]⟩
abbrev S2x320000 : Shape := ⟨2, ![2, 320000]⟩
abbrev S320000 : Shape := ⟨1, ![320000]⟩
abbrev S3x256x256 : Shape := ⟨3, ![3, 256, 256]⟩
abbrev S1x2000x256 : Shape := ⟨3, ![1, 2000, 256]⟩
abbrev S1x256x256 : Shape := ⟨3, ![1, 256, 256]⟩
abbrev S2000x256 : Shape := ⟨2, ![2000, 256]⟩
abbrev S256x256 : Shape := ⟨2, ![256, 256]⟩
abbrev S1x320000 : Shape := ⟨2, ![1, 320000]⟩
abbrev S20000 : Shape := ⟨1, ![20000]⟩
abbrev S340000 : Shape := ⟨1, ![340000]⟩
abbrev S_ : Shape := ⟨0, ![]⟩
abbrev S340000x1 : Shape := ⟨2, ![340000, 1]⟩
abbrev S3x340000x256 : Shape := ⟨3, ![3, 340000, 256]⟩
abbrev S1x340000x1 : Shape := ⟨3, ![1, 340000, 1]⟩
abbrev S20000x256 : Shape := ⟨2, ![20000, 256]⟩

abbrev nBuf : Space → Nat
  | .hbm => 70
  | .vmem => 22
  | .smem => 0
  | _ => 0

abbrev bufTy : (tb : Table) → Fin (tcTables nBuf tb) → BufTy
  | .hbm, ⟨0, _⟩ => ⟨S3x20000x256, .f32⟩
  | .hbm, ⟨1, _⟩ => ⟨S2x320000, .i32⟩
  | .hbm, ⟨2, _⟩ => ⟨S320000, .f32⟩
  | .hbm, ⟨3, _⟩ => ⟨S3x256x256, .f32⟩
  | .hbm, ⟨4, _⟩ => ⟨S3x256x256, .f32⟩
  | .hbm, ⟨5, _⟩ => ⟨S3x256x256, .f32⟩
  | .hbm, ⟨6, _⟩ => ⟨S3x256x256, .f32⟩
  | .hbm, ⟨7, _⟩ => ⟨S3x20000x256, .f32⟩
  | .hbm, ⟨8, _⟩ => ⟨S3x20000x256, .f32⟩
  | .hbm, ⟨9, _⟩ => ⟨S3x20000x256, .f32⟩
  | .hbm, ⟨10, _⟩ => ⟨S1x320000, .i32⟩
  | .hbm, ⟨11, _⟩ => ⟨S320000, .i32⟩
  | .hbm, ⟨12, _⟩ => ⟨S1x320000, .i32⟩
  | .hbm, ⟨13, _⟩ => ⟨S320000, .i32⟩
  | .hbm, ⟨14, _⟩ => ⟨S20000, .i32⟩
  | .hbm, ⟨15, _⟩ => ⟨S340000, .i32⟩
  | .hbm, ⟨16, _⟩ => ⟨S340000, .i32⟩
  | .hbm, ⟨17, _⟩ => ⟨S_, .f32⟩
  | .hbm, ⟨18, _⟩ => ⟨S20000, .f32⟩
  | .hbm, ⟨19, _⟩ => ⟨S340000, .f32⟩
  | .hbm, ⟨20, _⟩ => ⟨S_, .f32⟩
  | .hbm, ⟨21, _⟩ => ⟨S20000, .f32⟩
  | .hbm, ⟨22, _⟩ => ⟨S340000x1, .i32⟩
  | .hbm, ⟨23, _⟩ => ⟨S20000, .f32⟩
  | .hbm, ⟨24, _⟩ => ⟨S_, .f32⟩
  | .hbm, ⟨25, _⟩ => ⟨S20000, .f32⟩
  | .hbm, ⟨26, _⟩ => ⟨S20000, .i1⟩
  | .hbm, ⟨27, _⟩ => ⟨S20000, .f32⟩
  | .hbm, ⟨28, _⟩ => ⟨S_, .f32⟩
  | .hbm, ⟨29, _⟩ => ⟨S_, .f32⟩
  | .hbm, ⟨30, _⟩ => ⟨S20000, .f32⟩
  | .hbm, ⟨31, _⟩ => ⟨S20000, .f32⟩
  | .hbm, ⟨32, _⟩ => ⟨S_, .i32⟩
  | .hbm, ⟨33, _⟩ => ⟨S340000, .i32⟩
  | .hbm, ⟨34, _⟩ => ⟨S340000, .i1⟩
  | .hbm, ⟨35, _⟩ => ⟨S_, .i32⟩
  | .hbm, ⟨36, _⟩ => ⟨S340000, .i32⟩
  | .hbm, ⟨37, _⟩ => ⟨S340000, .i32⟩
  | .hbm, ⟨38, _⟩ => ⟨S340000, .i32⟩
  | .hbm, ⟨39, _⟩ => ⟨S340000x1, .i32⟩
  | .hbm, ⟨40, _⟩ => ⟨S340000, .f32⟩
  | .hbm, ⟨41, _⟩ => ⟨S340000, .f32⟩
  | .hbm, ⟨42, _⟩ => ⟨S_, .i32⟩
  | .hbm, ⟨43, _⟩ => ⟨S340000, .i32⟩
  | .hbm, ⟨44, _⟩ => ⟨S340000, .i1⟩
  | .hbm, ⟨45, _⟩ => ⟨S_, .i32⟩
  | .hbm, ⟨46, _⟩ => ⟨S340000, .i32⟩
  | .hbm, ⟨47, _⟩ => ⟨S340000, .i32⟩
  | .hbm, ⟨48, _⟩ => ⟨S340000, .i32⟩
  | .hbm, ⟨49, _⟩ => ⟨S340000x1, .i32⟩
  | .hbm, ⟨50, _⟩ => ⟨S340000, .f32⟩
  | .hbm, ⟨51, _⟩ => ⟨S340000, .f32⟩
  | .hbm, ⟨52, _⟩ => ⟨S_, .i32⟩
  | .hbm, ⟨53, _⟩ => ⟨S340000, .i32⟩
  | .hbm, ⟨54, _⟩ => ⟨S340000, .i1⟩
  | .hbm, ⟨55, _⟩ => ⟨S_, .i32⟩
  | .hbm, ⟨56, _⟩ => ⟨S340000, .i32⟩
  | .hbm, ⟨57, _⟩ => ⟨S340000, .i32⟩
  | .hbm, ⟨58, _⟩ => ⟨S340000, .i32⟩
  | .hbm, ⟨59, _⟩ => ⟨S340000x1, .i32⟩
  | .hbm, ⟨60, _⟩ => ⟨S3x340000x256, .f32⟩
  | .hbm, ⟨61, _⟩ => ⟨S1x340000x1, .f32⟩
  | .hbm, ⟨62, _⟩ => ⟨S3x340000x256, .f32⟩
  | .hbm, ⟨63, _⟩ => ⟨S3x340000x256, .f32⟩
  | .hbm, ⟨64, _⟩ => ⟨S_, .f32⟩
  | .hbm, ⟨65, _⟩ => ⟨S20000x256, .f32⟩
  | .hbm, ⟨66, _⟩ => ⟨S340000x1, .i32⟩
  | .hbm, ⟨67, _⟩ => ⟨S3x20000x256, .f32⟩
  | .hbm, ⟨68, _⟩ => ⟨S3x20000x256, .f32⟩
  | .hbm, ⟨69, _⟩ => ⟨S3x20000x256, .f32⟩
  | .local _ .vmem, ⟨0, _⟩ => ⟨S1x2000x256, .f32⟩
  | .local _ .vmem, ⟨1, _⟩ => ⟨S1x2000x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x2000x256, .f32⟩
  | .local _ .vmem, ⟨9, _⟩ => ⟨S1x2000x256, .f32⟩
  | .local _ .vmem, ⟨10, _⟩ => ⟨S1x2000x256, .f32⟩
  | .local _ .vmem, ⟨11, _⟩ => ⟨S1x2000x256, .f32⟩
  | .local _ .vmem, ⟨12, _⟩ => ⟨S1x2000x256, .f32⟩
  | .local _ .vmem, ⟨13, _⟩ => ⟨S1x2000x256, .f32⟩
  | .local _ .vmem, ⟨14, _⟩ => ⟨S1x2000x256, .f32⟩
  | .local _ .vmem, ⟨15, _⟩ => ⟨S1x2000x256, .f32⟩
  | .local _ .vmem, ⟨16, _⟩ => ⟨S1x2000x256, .f32⟩
  | .local _ .vmem, ⟨17, _⟩ => ⟨S1x2000x256, .f32⟩
  | .local _ .vmem, ⟨18, _⟩ => ⟨S1x2000x256, .f32⟩
  | .local _ .vmem, ⟨19, _⟩ => ⟨S1x2000x256, .f32⟩
  | .local _ .vmem, ⟨20, _⟩ => ⟨S1x2000x256, .f32⟩
  | .local _ .vmem, ⟨21, _⟩ => ⟨S1x2000x256, .f32⟩
  | _, _ => ⟨S3x20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨2, ![3, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![3, 10], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  transposes_S3x256x256_S3x256x256_0_2_1 : S3x256x256.Transposes [0, 2, 1] S3x256x256
  inb_S1x2000x256_S1x2000x256_0_0_0 : ∀ a, (![0, 0, 0] : Fin 3 → Nat) a + S1x2000x256.size a ≤ S1x2000x256.size a
  h_S1x2000x256 : 0 < S1x2000x256.numel
  shapeCasts_S1x2000x256_S2000x256 : S1x2000x256.ShapeCasts S2000x256
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S2000x256_S1x2000x256 : S2000x256.ShapeCasts S1x2000x256
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S20000_S340000_d0 : Shape.Concatenates [S320000, S20000] S340000 0
  bcast_S_S20000 : S_.BroadcastsInDim S20000 (![] : Fin 0 → Fin S20000.rank)
  bcast_S340000_S340000x1_0 : S340000.BroadcastsInDim S340000x1 (![0] : Fin 1 → Fin S340000x1.rank)
  bcast_S_S340000 : S_.BroadcastsInDim S340000 (![] : Fin 0 → Fin S340000.rank)
  bcast_S340000_S1x340000x1_1 : S340000.BroadcastsInDim S1x340000x1 (![1] : Fin 1 → Fin S1x340000x1.rank)
  bcast_S1x340000x1_S3x340000x256_0_1_2 : S1x340000x1.BroadcastsInDim S3x340000x256 (![0, 1, 2] : Fin 3 → Fin S3x340000x256.rank)
  bcast_S_S20000x256 : S_.BroadcastsInDim S20000x256 (![] : Fin 0 → Fin S20000x256.rank)
  bcast_S20000x256_S3x20000x256_1_2 : S20000x256.BroadcastsInDim S3x20000x256 (![1, 2] : Fin 2 → Fin S3x20000x256.rank)
  dot_S2000x256_S256x256_S2000x256_1_0_0_1_n_n_wf : DotDims.WF S2000x256 S256x256 S2000x256 [1] [0] [0] [1] [] []
  scatter_S20000_S340000x1_S340000_n_0_0_1_wf : ScatterDims.WF S20000 S340000x1 S340000 [] [0] [0] 1
  gather_S20000_S340000x1_S340000_n_0_n_n_0_1_1_wf : GatherDims.WF S20000 S340000x1 S340000 [] [0] [] [0] [] 1 ![1]
  gather_S3x20000x256_S340000x1_S3x340000x256_02_1_n_n_1_1_31256_wf : GatherDims.WF S3x20000x256 S340000x1 S3x340000x256 [0, 2] [1] [] [1] [] 1 ![3, 1, 256]
  scatter_S3x20000x256_S340000x1_S3x340000x256_02_1_1_1_wf : ScatterDims.WF S3x20000x256 S340000x1 S3x340000x256 [0, 2] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2000x256.size a ≤ S3x20000x256.size a
  hwx0_0 : ∀ i : grid0.Coords, EltTy.bits .f32 = 32 ∨ (Rect.block (s := S3x20000x256) S1x2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S3x256x256.size a
  hwx0_1 : ∀ i : grid0.Coords, EltTy.bits .f32 = 32 ∨ (Rect.block (s := S3x256x256) S1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256.size a ≤ S3x256x256.size a
  hwx0_2 : ∀ i : grid0.Coords, EltTy.bits .f32 = 32 ∨ (Rect.block (s := S3x256x256) S1x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x256.size a ≤ S3x256x256.size a
  hwx0_3 : ∀ i : grid0.Coords, EltTy.bits .f32 = 32 ∨ (Rect.block (s := S3x256x256) S1x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2000x256.size a ≤ S3x20000x256.size a
  hwx0_4 : ∀ i : grid0.Coords, EltTy.bits .f32 = 32 ∨ (Rect.block (s := S3x20000x256) S1x2000x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2000x256.size a ≤ S3x20000x256.size a
  hwx0_5 : ∀ i : grid0.Coords, EltTy.bits .f32 = 32 ∨ (Rect.block (s := S3x20000x256) S1x2000x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2000x256.size a ≤ S3x20000x256.size a
  hwx0_6 : ∀ i : grid0.Coords, EltTy.bits .f32 = 32 ∨ (Rect.block (s := S3x20000x256) S1x2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2000x256.size a ≤ S3x20000x256.size a
  hwx1_0 : ∀ i : grid1.Coords, EltTy.bits .f32 = 32 ∨ (Rect.block (s := S3x20000x256) S1x2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2000x256.size a ≤ S3x20000x256.size a
  hwx1_1 : ∀ i : grid1.Coords, EltTy.bits .f32 = 32 ∨ (Rect.block (s := S3x20000x256) S1x2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2000x256.size a ≤ S3x20000x256.size a
  hwx1_2 : ∀ i : grid1.Coords, EltTy.bits .f32 = 32 ∨ (Rect.block (s := S3x20000x256) S1x2000x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2000x256.size a ≤ S3x20000x256.size a
  hwx1_3 : ∀ i : grid1.Coords, EltTy.bits .f32 = 32 ∨ (Rect.block (s := S3x20000x256) S1x2000x256.size (cc1_transform_3 i) (hinb1_3 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def gather_S20000_S340000x1_S340000_n_0_n_n_0_1_1 : GatherDims S20000 S340000x1 S340000 where
  offsetDims := []
  collapsedSliceDims := [0]
  operandBatchingDims := []
  startIndicesBatchingDims := []
  startIndexMap := [0]
  indexVectorDim := 1
  sliceSizes := ![1]
  wf := gather_S20000_S340000x1_S340000_n_0_n_n_0_1_1_wf
def gather_S3x20000x256_S340000x1_S3x340000x256_02_1_n_n_1_1_31256 : GatherDims S3x20000x256 S340000x1 S3x340000x256 where
  offsetDims := [0, 2]
  collapsedSliceDims := [1]
  operandBatchingDims := []
  startIndicesBatchingDims := []
  startIndexMap := [1]
  indexVectorDim := 1
  sliceSizes := ![3, 1, 256]
  wf := gather_S3x20000x256_S340000x1_S3x340000x256_02_1_n_n_1_1_31256_wf
def scatter_S3x20000x256_S340000x1_S3x340000x256_02_1_1_1 : ScatterDims S3x20000x256 S340000x1 S3x340000x256 where
  updateWindowDims := [0, 2]
  insertedWindowDims := [1]
  scatterDimsToOperandDims := [1]
  indexVectorDim := 1
  wf := scatter_S3x20000x256_S340000x1_S3x340000x256_02_1_1_1_wf

abbrev win0_0 : Pipeline.Window sig grid0 :=
  Pipeline.Window.ofSpec (Memref.whole main_arg0) S1x2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x2000x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x2000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_2) S1x2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v47) S1x2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S1x2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_2) S1x2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S3x20000x256 : Shape := ⟨3, ![3, 20000, 256]⟩
abbrev S2x320000 : Shape := ⟨2, ![2, 320000]⟩
abbrev S320000 : Shape := ⟨1, ![320000]⟩
abbrev S3x256x256 : Shape := ⟨3, ![3, 256, 256]⟩
abbrev S1x320000 : Shape := ⟨2, ![1, 320000]⟩
abbrev S20000 : Shape := ⟨1, ![20000]⟩
abbrev S340000 : Shape := ⟨1, ![340000]⟩
abbrev S_ : Shape := ⟨0, ![]⟩
abbrev S340000x1 : Shape := ⟨2, ![340000, 1]⟩
abbrev S3x340000x256 : Shape := ⟨3, ![3, 340000, 256]⟩
abbrev S1x340000x1 : Shape := ⟨3, ![1, 340000, 1]⟩
abbrev S20000x256 : Shape := ⟨2, ![20000, 256]⟩

abbrev nBuf : Space → Nat
  | .hbm => 89
  | .vmem => 0
  | .smem => 0
  | _ => 0

abbrev bufTy : (tb : Table) → Fin (tcTables nBuf tb) → BufTy
  | .hbm, ⟨0, _⟩ => ⟨S3x20000x256, .f32⟩
  | .hbm, ⟨1, _⟩ => ⟨S2x320000, .i32⟩
  | .hbm, ⟨2, _⟩ => ⟨S320000, .f32⟩
  | .hbm, ⟨3, _⟩ => ⟨S3x256x256, .f32⟩
  | .hbm, ⟨4, _⟩ => ⟨S3x256x256, .f32⟩
  | .hbm, ⟨5, _⟩ => ⟨S3x256x256, .f32⟩
  | .hbm, ⟨6, _⟩ => ⟨S1x320000, .i32⟩
  | .hbm, ⟨7, _⟩ => ⟨S320000, .i32⟩
  | .hbm, ⟨8, _⟩ => ⟨S1x320000, .i32⟩
  | .hbm, ⟨9, _⟩ => ⟨S320000, .i32⟩
  | .hbm, ⟨10, _⟩ => ⟨S20000, .i32⟩
  | .hbm, ⟨11, _⟩ => ⟨S340000, .i32⟩
  | .hbm, ⟨12, _⟩ => ⟨S340000, .i32⟩
  | .hbm, ⟨13, _⟩ => ⟨S_, .f32⟩
  | .hbm, ⟨14, _⟩ => ⟨S20000, .f32⟩
  | .hbm, ⟨15, _⟩ => ⟨S340000, .f32⟩
  | .hbm, ⟨16, _⟩ => ⟨S_, .f32⟩
  | .hbm, ⟨17, _⟩ => ⟨S20000, .f32⟩
  | .hbm, ⟨18, _⟩ => ⟨S340000x1, .i32⟩
  | .hbm, ⟨19, _⟩ => ⟨S20000, .f32⟩
  | .hbm, ⟨20, _⟩ => ⟨S_, .f32⟩
  | .hbm, ⟨21, _⟩ => ⟨S20000, .f32⟩
  | .hbm, ⟨22, _⟩ => ⟨S20000, .i1⟩
  | .hbm, ⟨23, _⟩ => ⟨S20000, .f32⟩
  | .hbm, ⟨24, _⟩ => ⟨S_, .f32⟩
  | .hbm, ⟨25, _⟩ => ⟨S_, .f32⟩
  | .hbm, ⟨26, _⟩ => ⟨S20000, .f32⟩
  | .hbm, ⟨27, _⟩ => ⟨S20000, .f32⟩
  | .hbm, ⟨28, _⟩ => ⟨S_, .i32⟩
  | .hbm, ⟨29, _⟩ => ⟨S340000, .i32⟩
  | .hbm, ⟨30, _⟩ => ⟨S340000, .i1⟩
  | .hbm, ⟨31, _⟩ => ⟨S_, .i32⟩
  | .hbm, ⟨32, _⟩ => ⟨S340000, .i32⟩
  | .hbm, ⟨33, _⟩ => ⟨S340000, .i32⟩
  | .hbm, ⟨34, _⟩ => ⟨S340000, .i32⟩
  | .hbm, ⟨35, _⟩ => ⟨S340000x1, .i32⟩
  | .hbm, ⟨36, _⟩ => ⟨S340000, .f32⟩
  | .hbm, ⟨37, _⟩ => ⟨S340000, .f32⟩
  | .hbm, ⟨38, _⟩ => ⟨S_, .i32⟩
  | .hbm, ⟨39, _⟩ => ⟨S340000, .i32⟩
  | .hbm, ⟨40, _⟩ => ⟨S340000, .i1⟩
  | .hbm, ⟨41, _⟩ => ⟨S_, .i32⟩
  | .hbm, ⟨42, _⟩ => ⟨S340000, .i32⟩
  | .hbm, ⟨43, _⟩ => ⟨S340000, .i32⟩
  | .hbm, ⟨44, _⟩ => ⟨S340000, .i32⟩
  | .hbm, ⟨45, _⟩ => ⟨S340000x1, .i32⟩
  | .hbm, ⟨46, _⟩ => ⟨S340000, .f32⟩
  | .hbm, ⟨47, _⟩ => ⟨S340000, .f32⟩
  | .hbm, ⟨48, _⟩ => ⟨S3x20000x256, .f32⟩
  | .hbm, ⟨49, _⟩ => ⟨S_, .i32⟩
  | .hbm, ⟨50, _⟩ => ⟨S340000, .i32⟩
  | .hbm, ⟨51, _⟩ => ⟨S340000, .i1⟩
  | .hbm, ⟨52, _⟩ => ⟨S_, .i32⟩
  | .hbm, ⟨53, _⟩ => ⟨S340000, .i32⟩
  | .hbm, ⟨54, _⟩ => ⟨S340000, .i32⟩
  | .hbm, ⟨55, _⟩ => ⟨S340000, .i32⟩
  | .hbm, ⟨56, _⟩ => ⟨S340000x1, .i32⟩
  | .hbm, ⟨57, _⟩ => ⟨S3x340000x256, .f32⟩
  | .hbm, ⟨58, _⟩ => ⟨S1x340000x1, .f32⟩
  | .hbm, ⟨59, _⟩ => ⟨S3x340000x256, .f32⟩
  | .hbm, ⟨60, _⟩ => ⟨S3x340000x256, .f32⟩
  | .hbm, ⟨61, _⟩ => ⟨S_, .f32⟩
  | .hbm, ⟨62, _⟩ => ⟨S20000x256, .f32⟩
  | .hbm, ⟨63, _⟩ => ⟨S340000x1, .i32⟩
  | .hbm, ⟨64, _⟩ => ⟨S3x20000x256, .f32⟩
  | .hbm, ⟨65, _⟩ => ⟨S3x20000x256, .f32⟩
  | .hbm, ⟨66, _⟩ => ⟨S3x20000x256, .f32⟩
  | .hbm, ⟨67, _⟩ => ⟨S3x20000x256, .f32⟩
  | .hbm, ⟨68, _⟩ => ⟨S3x20000x256, .f32⟩
  | .hbm, ⟨69, _⟩ => ⟨S3x20000x256, .f32⟩
  | .hbm, ⟨70, _⟩ => ⟨S_, .f32⟩
  | .hbm, ⟨71, _⟩ => ⟨S3x20000x256, .f32⟩
  | .hbm, ⟨72, _⟩ => ⟨S3x20000x256, .f32⟩
  | .hbm, ⟨73, _⟩ => ⟨S_, .f32⟩
  | .hbm, ⟨74, _⟩ => ⟨S3x20000x256, .f32⟩
  | .hbm, ⟨75, _⟩ => ⟨S3x20000x256, .f32⟩
  | .hbm, ⟨76, _⟩ => ⟨S3x20000x256, .f32⟩
  | .hbm, ⟨77, _⟩ => ⟨S_, .f32⟩
  | .hbm, ⟨78, _⟩ => ⟨S3x20000x256, .f32⟩
  | .hbm, ⟨79, _⟩ => ⟨S3x20000x256, .f32⟩
  | .hbm, ⟨80, _⟩ => ⟨S3x20000x256, .f32⟩
  | .hbm, ⟨81, _⟩ => ⟨S3x20000x256, .f32⟩
  | .hbm, ⟨82, _⟩ => ⟨S_, .f32⟩
  | .hbm, ⟨83, _⟩ => ⟨S3x20000x256, .f32⟩
  | .hbm, ⟨84, _⟩ => ⟨S3x20000x256, .i1⟩
  | .hbm, ⟨85, _⟩ => ⟨S_, .f32⟩
  | .hbm, ⟨86, _⟩ => ⟨S3x20000x256, .f32⟩
  | .hbm, ⟨87, _⟩ => ⟨S3x20000x256, .f32⟩
  | .hbm, ⟨88, _⟩ => ⟨S3x20000x256, .f32⟩
  | _, _ => ⟨S3x20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S20000_S340000_d0 : Shape.Concatenates [S320000, S20000] S340000 0
  bcast_S_S20000 : S_.BroadcastsInDim S20000 (![] : Fin 0 → Fin S20000.rank)
  bcast_S340000_S340000x1_0 : S340000.BroadcastsInDim S340000x1 (![0] : Fin 1 → Fin S340000x1.rank)
  bcast_S_S340000 : S_.BroadcastsInDim S340000 (![] : Fin 0 → Fin S340000.rank)
  bcast_S340000_S1x340000x1_1 : S340000.BroadcastsInDim S1x340000x1 (![1] : Fin 1 → Fin S1x340000x1.rank)
  bcast_S1x340000x1_S3x340000x256_0_1_2 : S1x340000x1.BroadcastsInDim S3x340000x256 (![0, 1, 2] : Fin 3 → Fin S3x340000x256.rank)
  bcast_S_S20000x256 : S_.BroadcastsInDim S20000x256 (![] : Fin 0 → Fin S20000x256.rank)
  bcast_S20000x256_S3x20000x256_1_2 : S20000x256.BroadcastsInDim S3x20000x256 (![1, 2] : Fin 2 → Fin S3x20000x256.rank)
  bcast_S_S3x20000x256 : S_.BroadcastsInDim S3x20000x256 (![] : Fin 0 → Fin S3x20000x256.rank)
  scatter_S20000_S340000x1_S340000_n_0_0_1_wf : ScatterDims.WF S20000 S340000x1 S340000 [] [0] [0] 1
  gather_S20000_S340000x1_S340000_n_0_n_n_0_1_1_wf : GatherDims.WF S20000 S340000x1 S340000 [] [0] [] [0] [] 1 ![1]
  dot_S3x20000x256_S3x256x256_S3x20000x256_2_1_1_2_0_0_wf : DotDims.WF S3x20000x256 S3x256x256 S3x20000x256 [2] [1] [1] [2] [0] [0]
  gather_S3x20000x256_S340000x1_S3x340000x256_02_1_n_n_1_1_31256_wf : GatherDims.WF S3x20000x256 S340000x1 S3x340000x256 [0, 2] [1] [] [1] [] 1 ![3, 1, 256]
  scatter_S3x20000x256_S340000x1_S3x340000x256_02_1_1_1_wf : ScatterDims.WF S3x20000x256 S340000x1 S3x340000x256 [0, 2] [1] [1] 1
  dot_S3x20000x256_S3x256x256_S3x20000x256_2_2_1_1_0_0_wf : DotDims.WF S3x20000x256 S3x256x256 S3x20000x256 [2] [2] [1] [1] [0] [0]

variable [Facts₀]

def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def gather_S20000_S340000x1_S340000_n_0_n_n_0_1_1 : GatherDims S20000 S340000x1 S340000 where
  offsetDims := []
  collapsedSliceDims := [0]
  operandBatchingDims := []
  startIndicesBatchingDims := []
  startIndexMap := [0]
  indexVectorDim := 1
  sliceSizes := ![1]
  wf := gather_S20000_S340000x1_S340000_n_0_n_n_0_1_1_wf
def dot_S3x20000x256_S3x256x256_S3x20000x256_2_1_1_2_0_0 : DotDims S3x20000x256 S3x256x256 S3x20000x256 where
  lhsContracting := [2]
  rhsContracting := [1]
  lhsNonContracting := [1]
  rhsNonContracting := [2]
  lhsBatch := [0]
  rhsBatch := [0]
  wf := dot_S3x20000x256_S3x256x256_S3x20000x256_2_1_1_2_0_0_wf
def gather_S3x20000x256_S340000x1_S3x340000x256_02_1_n_n_1_1_31256 : GatherDims S3x20000x256 S340000x1 S3x340000x256 where
  offsetDims := [0, 2]
  collapsedSliceDims := [1]
  operandBatchingDims := []
  startIndicesBatchingDims := []
  startIndexMap := [1]
  indexVectorDim := 1
  sliceSizes := ![3, 1, 256]
  wf := gather_S3x20000x256_S340000x1_S3x340000x256_02_1_n_n_1_1_31256_wf
def scatter_S3x20000x256_S340000x1_S3x340000x256_02_1_1_1 : ScatterDims S3x20000x256 S340000x1 S3x340000x256 where
  updateWindowDims := [0, 2]
  insertedWindowDims := [1]
  scatterDimsToOperandDims := [1]
  indexVectorDim := 1
  wf := scatter_S3x20000x256_S340000x1_S3x340000x256_02_1_1_1_wf
def dot_S3x20000x256_S3x256x256_S3x20000x256_2_2_1_1_0_0 : DotDims S3x20000x256 S3x256x256 S3x20000x256 where
  lhsContracting := [2]
  rhsContracting := [2]
  lhsNonContracting := [1]
  rhsNonContracting := [1]
  lhsBatch := [0]
  rhsBatch := [0]
  wf := dot_S3x20000x256_S3x256x256_S3x20000x256_2_2_1_1_0_0_wf

class Facts : Prop extends Facts₀ where

variable [Facts]
-- ==== Proof.KernelRun.lean ====
/-
  The kernel program's run with its result named.

  The program is two grid regions among stretches of host operations. Its memory at each boundary is a fold from the
  launch memory: the host stretch before the first region, the first region's three arrays at what its write-backs
  leave, three host stretches, and the second region's array at what its write-backs leave. Every weakly fair
  execution ends with each unscoped buffer at the last stage of that fold; read at the result buffer this names the
  program's result, and read at an argument it gives the launch contents back, since no stage writes an argument.
-/
import proofs.«181050_j77043123356300_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last stage of the
    boundary fold and the six arguments as launched. -/
theorem run : θ_run defs (onTc (τ := τ) (main (F := F))) ⟨m, fun _ => 0, ρ⟩ (fun r => ∀ c : Dev nD,
      r.2.mem ((c.tc : Thread nD τ).loc main_v48) = W6 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v48 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.ValueRun

end
-- ==== Proof.Spec.lean ====
/-
  One graph-convolution highway layer, entry by entry, on the extended reals.

  For a field f, a node n and an output channel o the layer forms three products of the node features with a weight
  matrix of the field, each a sum over the 256 input channels k:
    transformed(f,n,o) = sum_k x(f,n,k) * Wg(f,k,o)      (the convolution's linear map, before propagation)
    residual(f,n,o)    = sum_k x(f,n,k) * Wr(f,o,k)      (a linear layer: the weight is stored output-major)
    gate(f,n,o)        = logistic (sum_k x(f,n,k) * Wh(f,k,o))
  The transformed features are propagated along the normalised edges (a function of the whole transformed array and of
  the edge list, the same on both sides of the claim, never opened here), and the result at an entry is the gated mix
    mix = gate * propagated + (1 - gate) * residual
  followed by the leaky rectifier: mix where mix >= 0, slope * mix elsewhere. The three float words (one, zero and
  the slope) are kept as words: both programs spell the same ones.
-/
import Idealize.ShloMosaic.PureOps.Ideal
import Idealize.ShloMosaic.Lib.ValueIdx

noncomputable section

open scoped BigOperators

namespace Cert.Highway

open Idealize.ShloMosaic Idealize.ShloMosaic.ValueIdx

/-- Node features and results: 3 fields, 20000 nodes, 256 channels. -/
abbrev Nodes : Shape := ⟨3, ![3, 20000, 256]⟩
/-- One 256 by 256 weight matrix per field. -/
abbrev Weights : Shape := ⟨3, ![3, 256, 256]⟩

/-- Entry (f, n, o) of the product of the features with a weight stored input-major: the sum over the input
    channels k of x(f,n,k) * w(f,k,o). -/
def dotAt (x : FVec Ideal Nodes .f32) (w : FVec Ideal Weights .f32) (f : Fin 3) (n : Fin 20000) (o : Fin 256) : EReal :=
  ∑ k : Fin 256, x (ix3 f n k) * w (ix3 f k o)

/-- Entry (f, n, o) of the product of the features with a weight stored output-major: the sum over the input
    channels k of x(f,n,k) * w(f,o,k). -/
def dotTAt (x : FVec Ideal Nodes .f32) (w : FVec Ideal Weights .f32) (f : Fin 3) (n : Fin 20000) (o : Fin 256) : EReal :=
  ∑ k : Fin 256, x (ix3 f n k) * w (ix3 f o k)

/-- The gated mix of the propagated and the residual value, then the leaky rectifier, on one entry. -/
def leaky (gcn res gate : EReal) : EReal :=
  Scalar.select
    (FloatOps.cmpf (F := Ideal) (φ := .f32) .oge
      (gate * gcn + (Ideal.ofBits .f32 0x3F800000#32 - gate) * res) (Ideal.ofBits .f32 0x00000000#32))
    (gate * gcn + (Ideal.ofBits .f32 0x3F800000#32 - gate) * res)
    (Ideal.ofBits .f32 0x3C23D70A#32 * (gate * gcn + (Ideal.ofBits .f32 0x3F800000#32 - gate) * res))

/-- The float word of one is the real number one. -/
theorem one_word : Ideal.ofBits .f32 0x3F800000#32 = 1 := by
  simp [Ideal.ofBits, Ideal.ieee, -EReal.coe_mul]; norm_num

/-- The logistic function is the quotient the host spells: 1 / (1 + exp (-z)), on every extended real. -/
theorem logistic_eq_quotient (z : EReal) :
    FloatOps.logistic (F := Ideal) (φ := .f32) z
      = FloatOps.hostDivf (F := Ideal) (φ := .f32) (Ideal.ofBits .f32 0x3F800000#32)
          (FloatOps.addf (F := Ideal) (φ := .f32) (Ideal.ofBits .f32 0x3F800000#32)
            (FloatOps.hostUnary (F := Ideal) (φ := .f32) .exp (FloatOps.hostNegf (F := Ideal) (φ := .f32) z))) := by
  rw [one_word]; rfl

end Cert.Highway

end
-- ==== Proof.Propagate.lean ====
/-
  The propagation along the normalised edges, as a function of the transformed features.

  The layer gathers the rows of the transformed features at the source nodes of the edge list (self loops appended),
  scales each gathered row by the symmetric normalisation of its edge, and adds the scaled rows into the rows of their
  target nodes, starting from zero. Which rows are gathered, the normalisation and the targets depend only on the edge
  list and the edge weights; the transformed features enter once, as the array the rows are gathered from. Naming the
  stage with that array as a variable lets two programs that build the transformed features differently be compared
  without opening the gather or the sum: equal transformed arrays give equal propagated arrays.
-/
import proofs.«181050_j77043123356300_2_alg».proof.Proof.Gen.ReferenceIdeal.Read

noncomputable section

namespace Cert.ReferenceIdeal.RefValue

open Cert.ReferenceIdeal Cert.ReferenceIdeal.Read Idealize.ShloMosaic

variable {F : FTy → Type} [FloatOps F]

/-- The propagated features: the rows of `xg` gathered at the edges' source nodes, each scaled by its edge's
    normalisation (a function of the edge list `x1` and the edge weights `x2`), added into the target nodes' rows. -/
def propagate (xg : (⟨S3x20000x256, .f32⟩ : BufTy).Contents (Elt F)) (x1 : (⟨S2x320000, .i32⟩ : BufTy).Contents (Elt F))
    (x2 : (⟨S320000, .f32⟩ : BufTy).Contents (Elt F)) : (⟨S3x20000x256, .f32⟩ : BufTy).Contents (Elt F) :=
  Host.scatterAdd scatter_S3x20000x256_S340000x1_S3x340000x256_02_1_1_1 (val_main_v45 (F := F)) (val_main_v44 (F := F) x1)
    (mulf (Host.gather gather_S3x20000x256_S340000x1_S3x340000x256_02_1_n_n_1_1_31256 xg (val_main_v38 (F := F) x1))
      (val_main_v41 (F := F) x1 x2))

/-- The reference's scatter stage is the propagation of its own transformed features, the product of the node
    features with the convolution weight. -/
theorem val_main_v46_eq_propagate (x0 : (⟨S3x20000x256, .f32⟩ : BufTy).Contents (Elt F))
    (x1 : (⟨S2x320000, .i32⟩ : BufTy).Contents (Elt F)) (x2 : (⟨S320000, .f32⟩ : BufTy).Contents (Elt F))
    (x3 : (⟨S3x256x256, .f32⟩ : BufTy).Contents (Elt F)) :
    val_main_v46 (F := F) x0 x1 x2 x3 = propagate (val_main_v32 (F := F) x0 x3) x1 x2 := rfl

end Cert.ReferenceIdeal.RefValue

end
-- ==== Proof.HostMid.lean ====
/-
  The kernel program's host operations between its two grid regions.

  Between the regions the host builds, from the edge list and the edge weights, the self-looped source and target
  lists and the symmetric normalisation of every edge, gathers the rows of the first region's transformed features at
  the sources, scales them, and adds them into the targets' rows. That is the propagation stage of the layer with the
  first region's array standing where the transformed features stand. The two other arrays the first region leaves
  (the residual and the gate) are written by no host operation and reach the second region as they were left.
-/
import proofs.«181050_j77043123356300_2_alg».proof.Proof.Gen.KernelIdeal.Frame
import proofs.«181050_j77043123356300_2_alg».proof.Proof.Propagate

set_option maxRecDepth 16384

noncomputable section

namespace Cert.KernelIdeal.HostMid

open Cert.KernelIdeal Cert.KernelIdeal.Gen
open Idealize.ShloMosaic Idealize.ShloMosaic.TcCoe Idealize.SL.Sem Idealize.ShloMosaic.StableHlo

variable {F : FTy → Type} [FloatOps F]

variable (m : (ℓ : Loc nD τ sig) → Buf (Elt F) ℓ) (ρ : Dev nD → PrngReg)

set_option maxHeartbeats 4000000 in
/-- At the second region's entry the propagated-features buffer holds the propagation of the first region's
    transformed array along the edges, the edge list and the weights read where the first region left them. -/
theorem entry_propagated (c : Dev nD) :
    W5 m ρ c (Proc.devRef .tc main_v47)
      = Cert.ReferenceIdeal.RefValue.propagate (F := F) (W2 m ρ c (Proc.devRef .tc main_v1_0))
          (W2 m ρ c (Proc.devRef .tc main_arg1)) (W2 m ρ c (Proc.devRef .tc main_arg2)) := by
  show StableHlo.after hostOps1_2 (StableHlo.after hostOps1_1 (StableHlo.after hostOps1 (W2 m ρ c))) (Proc.devRef .tc main_v47) = _
  rw [← StableHlo.after_append, ← StableHlo.after_append]
  simp only [hostOps1, hostOps1_1, hostOps1_2, List.cons_append, List.nil_append]
  after_results_simp
  rfl

set_option maxHeartbeats 4000000 in
/-- No host operation between the regions writes the residual array: the second region finds it as the first left it. -/
theorem entry_residual (c : Dev nD) :
    W5 m ρ c (Proc.devRef .tc main_v1_1) = W2 m ρ c (Proc.devRef .tc main_v1_1) := by
  show StableHlo.after hostOps1_2 (StableHlo.after hostOps1_1 (StableHlo.after hostOps1 (W2 m ρ c))) (Proc.devRef .tc main_v1_1) = _
  rw [← StableHlo.after_append, ← StableHlo.after_append]
  simp only [hostOps1, hostOps1_1, hostOps1_2, List.cons_append, List.nil_append]
  after_results_simp

set_option maxHeartbeats 4000000 in
/-- No host operation between the regions writes the gate array either. -/
theorem entry_gate (c : Dev nD) :
    W5 m ρ c (Proc.devRef .tc main_v1_2) = W2 m ρ c (Proc.devRef .tc main_v1_2) := by
  show StableHlo.after hostOps1_2 (StableHlo.after hostOps1_1 (StableHlo.after hostOps1 (W2 m ρ c))) (Proc.devRef .tc main_v1_2) = _
  rw [← StableHlo.after_append, ← StableHlo.after_append]
  simp only [hostOps1, hostOps1_1, hostOps1_2, List.cons_append, List.nil_append]
  after_results_simp

/-- At the first region's exit its three output arrays hold what the region's write-backs leave. -/
theorem exit_transformed (c : Dev nD) :
    W2 m ρ c (Proc.devRef .tc main_v1_0) = (dat0 (V1 m ρ) c).arrAt 4 cfg0.N := W2_arr m ρ c 4
theorem exit_residual (c : Dev nD) :
    W2 m ρ c (Proc.devRef .tc main_v1_1) = (dat0 (V1 m ρ) c).arrAt 5 cfg0.N := W2_arr m ρ c 5
theorem exit_gate (c : Dev nD) :
    W2 m ρ c (Proc.devRef .tc main_v1_2) = (dat0 (V1 m ρ) c).arrAt 6 cfg0.N := W2_arr m ρ c 6

/-- The host operation before the first region writes only the transposed residual weight: every argument is, at the
    first region's entry, as launched. -/
theorem entry0_arg (c : Dev nD) (b : Ref sig .tc) (hb : b ≠ main_v0) :
    W1 m ρ c (Proc.devRef .tc b) = W0 m ρ c (Proc.devRef .tc b) := by
  show StableHlo.after hostOps0 (W0 m ρ c) (Proc.devRef .tc b) = _
  simp only [hostOps0, StableHlo.after_cons, StableHlo.after_nil]
  rw [StableHlo.unary_result_ne]
  exact hb

/-- The edge list and the edge weights are arrays of no window of the first region and are written by no host
    operation before it: at its exit they are as launched. -/
theorem exit_edges (c : Dev nD) : W2 m ρ c (Proc.devRef .tc main_arg1) = m ((c : Thread nD τ).loc main_arg1) :=
  (W2_of_ne m ρ c main_arg1 (by decide)).trans (entry0_arg m ρ c main_arg1 (by decide))
theorem exit_weights (c : Dev nD) : W2 m ρ c (Proc.devRef .tc main_arg2) = m ((c : Thread nD τ).loc main_arg2) :=
  (W2_of_ne m ρ c main_arg2 (by decide)).trans (entry0_arg m ρ c main_arg2 (by decide))

/-- The first region's entry contents at its four input arrays: the node features and the convolution and gate
    weights as launched, the residual weight transposed to input-major. -/
theorem entry0_features (c : Dev nD) : V1 m ρ c main_arg0 = m ((c : Thread nD τ).loc main_arg0) :=
  entry0_arg m ρ c main_arg0 (by decide)
theorem entry0_conv (c : Dev nD) : V1 m ρ c main_arg3 = m ((c : Thread nD τ).loc main_arg3) :=
  entry0_arg m ρ c main_arg3 (by decide)
theorem entry0_gate (c : Dev nD) : V1 m ρ c main_arg5 = m ((c : Thread nD τ).loc main_arg5) :=
  entry0_arg m ρ c main_arg5 (by decide)
theorem entry0_residual (c : Dev nD) :
    V1 m ρ c main_v0 = transpose S3x256x256 [0, 2, 1] (m ((c : Thread nD τ).loc main_arg4)) transposes_S3x256x256_S3x256x256_0_2_1 := by
  show StableHlo.after hostOps0 (W0 m ρ c) (Proc.devRef .tc main_v0) = _
  simp only [hostOps0]
  after_results

end Cert.KernelIdeal.HostMid

end
-- ==== Proof.RefSide.lean ====
/-
  The reference program's result, entry by entry, on the extended reals.

  The reference forms three products of the node features with a weight matrix of the field, each a sum over the 256
  input channels: the transformed features (weight read input-major), the residual (weight read output-major) and the
  argument of the gate (weight read input-major). The gate is the quotient 1 / (1 + exp (-z)) of that argument, which
  is the logistic function of z on every extended real. The transformed features are propagated along the edges by a
  stage that is kept closed here. The result at an entry (f, n, o) is then the gated mix
    gate * propagated + (1 - gate) * residual
  followed by the leaky rectifier: the mix where it is at least zero, the slope times the mix elsewhere. The words of
  one, zero and the slope are broadcasts of scalar constants; they are read down to the words and never evaluated.
-/
import proofs.«181050_j77043123356300_2_alg».proof.Proof.Spec
import proofs.«181050_j77043123356300_2_alg».proof.Proof.Propagate
import Idealize.ShloMosaic.Lib.ValueIdx

noncomputable section

open scoped BigOperators

namespace Cert.ReferenceIdeal.RefSide

open Cert.ReferenceIdeal Cert.ReferenceIdeal.Gen Cert.ReferenceIdeal.Read Idealize.ShloMosaic Idealize.ShloMosaic.ValueIdx
  Idealize.ShloMosaic.TcCoe Idealize.SL.Sem

/-! ## The index maps of the three products at an entry -/

/-- The transformed features read the node features at (f, n, k) … -/
theorem lidx_transformed (f : Fin 3) (n : Fin 20000) (o k : Fin 256) :
    lidx_main_v32 (ix3 f n o) k = ix3 f n k :=
  funext fun a => Fin.ext (by match a with | ⟨0, _⟩ => rfl | ⟨1, _⟩ => rfl | ⟨2, _⟩ => rfl)

/-- … and the convolution weight at (f, k, o): input-major. -/
theorem ridx_transformed (f : Fin 3) (n : Fin 20000) (o k : Fin 256) :
    ridx_main_v32 (ix3 f n o) k = ix3 f k o :=
  funext fun a => Fin.ext (by match a with | ⟨0, _⟩ => rfl | ⟨1, _⟩ => rfl | ⟨2, _⟩ => rfl)

/-- The residual reads the node features at (f, n, k) … -/
theorem lidx_residual (f : Fin 3) (n : Fin 20000) (o k : Fin 256) :
    lidx_main_v47 (ix3 f n o) k = ix3 f n k :=
  funext fun a => Fin.ext (by match a with | ⟨0, _⟩ => rfl | ⟨1, _⟩ => rfl | ⟨2, _⟩ => rfl)

/-- … and the linear layer's weight at (f, o, k): output-major. -/
theorem ridx_residual (f : Fin 3) (n : Fin 20000) (o k : Fin 256) :
    ridx_main_v47 (ix3 f n o) k = ix3 f o k :=
  funext fun a => Fin.ext (by match a with | ⟨0, _⟩ => rfl | ⟨1, _⟩ => rfl | ⟨2, _⟩ => rfl)

/-- The gate's argument reads the node features at (f, n, k) … -/
theorem lidx_gate (f : Fin 3) (n : Fin 20000) (o k : Fin 256) :
    lidx_main_v48 (ix3 f n o) k = ix3 f n k :=
  funext fun a => Fin.ext (by match a with | ⟨0, _⟩ => rfl | ⟨1, _⟩ => rfl | ⟨2, _⟩ => rfl)

/-- … and the gate's weight at (f, k, o): input-major. -/
theorem ridx_gate (f : Fin 3) (n : Fin 20000) (o k : Fin 256) :
    ridx_main_v48 (ix3 f n o) k = ix3 f k o :=
  funext fun a => Fin.ext (by match a with | ⟨0, _⟩ => rfl | ⟨1, _⟩ => rfl | ⟨2, _⟩ => rfl)

/-! ## The three products at an entry -/

/-- The transformed features at (f, n, o): the sum over k of x(f,n,k) * Wg(f,k,o). -/
theorem transformed_apply (x0 : (⟨S3x20000x256, .f32⟩ : BufTy).Contents (Elt Ideal))
    (x3 : (⟨S3x256x256, .f32⟩ : BufTy).Contents (Elt Ideal)) (f : Fin 3) (n : Fin 20000) (o : Fin 256) :
    val_main_v32 (F := Ideal) x0 x3 (ix3 f n o) = Cert.Highway.dotAt x0 x3 f n o := by
  refine (val_main_v32_apply x0 x3 (ix3 f n o)).trans ?_
  unfold Cert.Highway.dotAt
  refine Finset.sum_congr rfl fun k _ => ?_
  rw [lidx_transformed, ridx_transformed]

/-- The residual at (f, n, o): the sum over k of x(f,n,k) * Wr(f,o,k). -/
theorem residual_apply (x0 : (⟨S3x20000x256, .f32⟩ : BufTy).Contents (Elt Ideal))
    (x4 : (⟨S3x256x256, .f32⟩ : BufTy).Contents (Elt Ideal)) (f : Fin 3) (n : Fin 20000) (o : Fin 256) :
    val_main_v47 (F := Ideal) x0 x4 (ix3 f n o) = Cert.Highway.dotTAt x0 x4 f n o := by
  refine (val_main_v47_apply x0 x4 (ix3 f n o)).trans ?_
  unfold Cert.Highway.dotTAt
  refine Finset.sum_congr rfl fun k _ => ?_
  rw [lidx_residual, ridx_residual]

/-- The gate's argument at (f, n, o): the sum over k of x(f,n,k) * Wh(f,k,o). -/
theorem gate_arg_apply (x0 : (⟨S3x20000x256, .f32⟩ : BufTy).Contents (Elt Ideal))
    (x5 : (⟨S3x256x256, .f32⟩ : BufTy).Contents (Elt Ideal)) (f : Fin 3) (n : Fin 20000) (o : Fin 256) :
    val_main_v48 (F := Ideal) x0 x5 (ix3 f n o) = Cert.Highway.dotAt x0 x5 f n o := by
  refine (val_main_v48_apply x0 x5 (ix3 f n o)).trans ?_
  unfold Cert.Highway.dotAt
  refine Finset.sum_congr rfl fun k _ => ?_
  rw [lidx_gate, ridx_gate]

/-! ## The gate and the result at an entry -/

/-- The gate at (f, n, o): the host's quotient 1 / (1 + exp (-z)) of the gate's argument z is the logistic function
    of z. -/
theorem gate_apply (x0 : (⟨S3x20000x256, .f32⟩ : BufTy).Contents (Elt Ideal))
    (x5 : (⟨S3x256x256, .f32⟩ : BufTy).Contents (Elt Ideal)) (f : Fin 3) (n : Fin 20000) (o : Fin 256) :
    val_main_v54 (F := Ideal) x0 x5 (ix3 f n o)
      = FloatOps.logistic (F := Ideal) (φ := .f32) (Cert.Highway.dotAt x0 x5 f n o) := by
  rw [Cert.Highway.logistic_eq_quotient, ← gate_arg_apply x0 x5 f n o]
  rw [val_main_v54_apply, val_main_v53_apply, val_main_cst_10_apply, val_main_v52_apply, val_main_v51_apply,
    val_main_cst_9_apply, val_main_v50_apply, val_main_v49_apply]
  rfl

/-- The result at (f, n, o): the gated mix of the propagated and the residual value, then the leaky rectifier. -/
theorem result_apply (x0 : (⟨S3x20000x256, .f32⟩ : BufTy).Contents (Elt Ideal))
    (x1 : (⟨S2x320000, .i32⟩ : BufTy).Contents (Elt Ideal)) (x2 : (⟨S320000, .f32⟩ : BufTy).Contents (Elt Ideal))
    (x3 x4 x5 : (⟨S3x256x256, .f32⟩ : BufTy).Contents (Elt Ideal)) (f : Fin 3) (n : Fin 20000) (o : Fin 256) :
    val_main_v64 (F := Ideal) x0 x1 x2 x3 x4 x5 (ix3 f n o)
      = Cert.Highway.leaky (val_main_v46 (F := Ideal) x0 x1 x2 x3 (ix3 f n o))
          (Cert.Highway.dotTAt x0 x4 f n o)
          (FloatOps.logistic (F := Ideal) (φ := .f32) (Cert.Highway.dotAt x0 x5 f n o)) := by
  rw [← gate_apply x0 x5 f n o, ← residual_apply x0 x4 f n o]
  rw [val_main_v64_apply, val_main_v61_apply, val_main_v63_apply, val_main_v62_apply, val_main_cst_13_apply,
    val_main_v60_apply, val_main_cst_12_apply, val_main_v59_apply, val_main_v55_apply, val_main_v58_apply,
    val_main_v57_apply, val_main_v56_apply, val_main_cst_11_apply]
  rfl

/-! ## The run's result buffer -/

/-- The result buffer of the reference's run is the last stage of the six argument arrays. -/
theorem run_result (m : (ℓ : Loc nD τ sig) → Buf (Elt Ideal) ℓ) (c : Dev nD) :
    Cert.ReferenceIdeal.Value.res_main_v64 (F := Ideal) m c
      = val_main_v64 (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  val_main_v64_eq m c

/-- The result buffer of the reference's run at (f, n, o): the leaky gated mix of the propagated transformed
    features, the residual and the gate, each of the memory's argument arrays. -/
theorem run_result_apply (m : (ℓ : Loc nD τ sig) → Buf (Elt Ideal) ℓ) (c : Dev nD) (f : Fin 3) (n : Fin 20000)
    (o : Fin 256) :
    (Cert.ReferenceIdeal.Value.res_main_v64 (F := Ideal) m c : (⟨S3x20000x256, .f32⟩ : BufTy).Contents (Elt Ideal))
        (ix3 f n o)
      = Cert.Highway.leaky
          (val_main_v46 (F := Ideal) (m ((c.tc : Thread nD τ).loc main_arg0)) (m ((c.tc : Thread nD τ).loc main_arg1))
            (m ((c.tc : Thread nD τ).loc main_arg2)) (m ((c.tc : Thread nD τ).loc main_arg3)) (ix3 f n o))
          (Cert.Highway.dotTAt (m ((c.tc : Thread nD τ).loc main_arg0)) (m ((c.tc : Thread nD τ).loc main_arg4)) f n o)
          (FloatOps.logistic (F := Ideal) (φ := .f32)
            (Cert.Highway.dotAt (m ((c.tc : Thread nD τ).loc main_arg0)) (m ((c.tc : Thread nD τ).loc main_arg5)) f n o)) :=
  (congrFun (run_result m c) (ix3 f n o)).trans (result_apply _ _ _ _ _ _ f n o)

end Cert.ReferenceIdeal.RefSide

end
-- ==== Proof.Combine.lean ====
/-
  The highway combine, as one function of whole arrays.

  The second grid region walks a 3 by 10 grid. At the point (f, b) each of its four windows is the block of 2000
  consecutive nodes 2000 b, ..., 2000 b + 1999 of field f, all 256 channels: a [1, 2000, 256] piece of a
  [3, 20000, 256] array, the same piece for the three arrays it reads (the propagated features, the residual and the
  gate) and for the array it writes. The body stores one whole block, and the stored value at an entry depends only on
  the three loaded values at that same entry: the gated mix
      gate * propagated + (1 - gate) * residual
  followed by the leaky rectifier. The thirty blocks tile the array, so after the region the written array is, entry
  by entry, that function of the three arrays read, whatever those arrays hold when the region is entered.
-/
import proofs.«181050_j77043123356300_2_alg».proof.Proof.Spec
import proofs.«181050_j77043123356300_2_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Combine

open Cert.KernelIdeal Cert.KernelIdeal.Gen Cert.Highway
open Idealize.ShloMosaic Idealize.ShloMosaic.TcCoe Idealize.ShloMosaic.ValueIdx Idealize.SL.Sem
open Idealize.ShloMosaic.Pipeline (Dat)

/-! ## The body's value at an entry -/

/-- The whole-block rectangle starts at zero on every axis. -/
theorem zero_offsets : (![0, 0, 0] : Fin 3 → Nat) = fun _ => 0 := funext fun a => by fin_cases a <;> rfl

/-- The stored block at the entry (0, r, q) is the gated mix and leaky rectifier of the three loaded blocks at that
    same entry. The body drops the leading unit axis of each loaded block, works entry by entry on [2000, 256], and puts
    the unit axis back: the two reshapes move (0, r, q) to (r, q) and back, and every operation between them reads its
    operands at the index it is read at. -/
theorem pay_at (v0 v2 v4 : Vec Ideal S1x2000x256 .f32) (u : Fin 1) (r : Fin 2000) (q : Fin 256) :
    k1_pay1 (F := Ideal) v0 v2 v4 (ix3 u r q) = leaky (v0 (ix3 u r q)) (v2 (ix3 u r q)) (v4 (ix3 u r q)) := by
  obtain rfl : u = 0 := Subsingleton.elim _ _
  unfold k1_pay1
  refine (shapeCast_ab_1ab_apply _ _ 0 r q).trans ?_
  show leaky (shapeCast S2000x256 v0 shapeCasts_S1x2000x256_S2000x256 (ix2 r q))
      (shapeCast S2000x256 v2 shapeCasts_S1x2000x256_S2000x256 (ix2 r q))
      (shapeCast S2000x256 v4 shapeCasts_S1x2000x256_S2000x256 (ix2 r q)) = _
  exact congr (congr (congrArg leaky (shapeCast_1ab_ab_apply v0 _ r q)) (shapeCast_1ab_ab_apply v2 _ r q))
    (shapeCast_1ab_ab_apply v4 _ r q)

/-! ## The four windows move together, and the written window's blocks reach every block of the array -/

/-- At every grid point each window that is read sits at the same block index as the window that is written, on each
    of the three axes (decided over the thirty points). -/
theorem index_facts : ∀ t : Fin cfg1.N,
    win1_0.index t (0 : Fin 3) = win1_3.index t (0 : Fin 3) ∧ win1_0.index t (1 : Fin 3) = win1_3.index t (1 : Fin 3)
    ∧ win1_0.index t (2 : Fin 3) = win1_3.index t (2 : Fin 3)
    ∧ win1_1.index t (0 : Fin 3) = win1_3.index t (0 : Fin 3) ∧ win1_1.index t (1 : Fin 3) = win1_3.index t (1 : Fin 3)
    ∧ win1_1.index t (2 : Fin 3) = win1_3.index t (2 : Fin 3)
    ∧ win1_2.index t (0 : Fin 3) = win1_3.index t (0 : Fin 3) ∧ win1_2.index t (1 : Fin 3) = win1_3.index t (1 : Fin 3)
    ∧ win1_2.index t (2 : Fin 3) = win1_3.index t (2 : Fin 3) :=
  (by decide +kernel : ∀ t : Fin grid1.N, _)

/-- Every block index (f, b, 0), f below 3 and b below 10, is the written window's at some grid point. -/
theorem index_onto : ∀ (f : Fin 3) (b : Fin 10), ∃ t : Fin cfg1.N, win1_3.index t = ![f.val, b.val, 0] :=
  (by decide +kernel : ∀ (f : Fin 3) (b : Fin 10), ∃ t : Fin grid1.N, win1_3.index t = ![f.val, b.val, 0])

/-! ## From blocks to the array -/

variable (V : (c : Dev nD) → (b : Ref sig .tc) → Buf (Elt Ideal) ((c : Thread nD τ).loc b))

/-- The region's result as one function of the three arrays it reads, as the region finds them: at each entry the
    gated mix and leaky rectifier of the propagated features, the residual and the gate at that entry. -/
abbrev combined (c : Dev nD) : S3x20000x256.Idx → EReal :=
  fun i => leaky (V c main_v47 i) (V c main_v1_1 i) (V c main_v1_2 i)

/-- What the grid point `t` writes back is the block at `t` of `combined`. The stored block at (u, r, q) is the
    body's value of the three loaded blocks there (`pay_at`); each loaded block at (u, r, q) is its array at block
    index times block size plus (u, r, q), and the three block indices are the written window's (`index_facts`),
    so all three arrays are read at the very entry the write-back writes. -/
theorem flushed_eq (c : Dev nD) (t : Fin cfg1.N) :
    (dat1 (F := Ideal) V c).flushed 3 t = ((cfg1.win 3).blk t).view.read (Elt Ideal) (combined V c) := by
  show (cfg1.win 3).cut (grid1.coords t) ((dat1 V c).after 3 t) = _
  rw [after1_3]
  unfold out1_3
  rw [View.canon_unit_zero zero_offsets]
  simp only [View.ld_unit_zero (S := S1x2000x256) zero_offsets]
  obtain ⟨e00, e01, e02, e10, e11, e12, e20, e21, e22⟩ := index_facts t
  refine funext fun (j : S1x2000x256.Idx) => ?_
  obtain ⟨u, r, q, rfl⟩ : ∃ (u : Fin 1) (r : Fin 2000) (q : Fin 256), j = ix3 u r q := ⟨j 0, j 1, j 2, eq_ix3 j⟩
  show k1_pay1 (iblk1 V c 0 t) (iblk1 V c 1 t) (iblk1 V c 2 t) (ix3 u r q)
    = combined V c (((cfg1.win 3).blk t).view.emb (ix3 u r q))
  refine (pay_at (iblk1 V c 0 t) (iblk1 V c 1 t) (iblk1 V c 2 t) u r q).trans ?_
  have h0 : (((cfg1.win 0).blk t).view.emb (ix3 u r q) : S3x20000x256.Idx) = ((cfg1.win 3).blk t).view.emb (ix3 u r q) := by
    funext a; apply Fin.ext
    match a with
    | ⟨0, _⟩ => show win1_0.index t (0 : Fin 3) * 1 + 1 * u.val = win1_3.index t (0 : Fin 3) * 1 + 1 * u.val; omega
    | ⟨1, _⟩ => show win1_0.index t (1 : Fin 3) * 2000 + 1 * r.val = win1_3.index t (1 : Fin 3) * 2000 + 1 * r.val; omega
    | ⟨2, _⟩ => show win1_0.index t (2 : Fin 3) * 256 + 1 * q.val = win1_3.index t (2 : Fin 3) * 256 + 1 * q.val; omega
  have h1 : (((cfg1.win 1).blk t).view.emb (ix3 u r q) : S3x20000x256.Idx) = ((cfg1.win 3).blk t).view.emb (ix3 u r q) := by
    funext a; apply Fin.ext
    match a with
    | ⟨0, _⟩ => show win1_1.index t (0 : Fin 3) * 1 + 1 * u.val = win1_3.index t (0 : Fin 3) * 1 + 1 * u.val; omega
    | ⟨1, _⟩ => show win1_1.index t (1 : Fin 3) * 2000 + 1 * r.val = win1_3.index t (1 : Fin 3) * 2000 + 1 * r.val; omega
    | ⟨2, _⟩ => show win1_1.index t (2 : Fin 3) * 256 + 1 * q.val = win1_3.index t (2 : Fin 3) * 256 + 1 * q.val; omega
  have h2 : (((cfg1.win 2).blk t).view.emb (ix3 u r q) : S3x20000x256.Idx) = ((cfg1.win 3).blk t).view.emb (ix3 u r q) := by
    funext a; apply Fin.ext
    match a with
    | ⟨0, _⟩ => show win1_2.index t (0 : Fin 3) * 1 + 1 * u.val = win1_3.index t (0 : Fin 3) * 1 + 1 * u.val; omega
    | ⟨1, _⟩ => show win1_2.index t (1 : Fin 3) * 2000 + 1 * r.val = win1_3.index t (1 : Fin 3) * 2000 + 1 * r.val; omega
    | ⟨2, _⟩ => show win1_2.index t (2 : Fin 3) * 256 + 1 * q.val = win1_3.index t (2 : Fin 3) * 256 + 1 * q.val; omega
  show leaky (V c main_v47 (((cfg1.win 0).blk t).view.emb (ix3 u r q))) (V c main_v1_1 (((cfg1.win 1).blk t).view.emb (ix3 u r q)))
      (V c main_v1_2 (((cfg1.win 2).blk t).view.emb (ix3 u r q))) = _
  exact congr (congr (congrArg leaky (congrArg (V c main_v47) h0)) (congrArg (V c main_v1_1) h1)) (congrArg (V c main_v1_2) h2)

/-- An entry of the array lies in the block written at `t` exactly when, on each axis, its coordinate is in the
    block's range: from block index times block size, for one block size. -/
theorem mem_blk (t : Fin cfg1.N) (i : S3x20000x256.Idx) :
    i ∈ ((cfg1.win 3).blk t).view.set ↔ ∀ a : Fin 3, win1_3.index t a * S1x2000x256.size a ≤ (i a).val
      ∧ (i a).val < win1_3.index t a * S1x2000x256.size a + S1x2000x256.size a := by
  show i ∈ ((View.whole main_v48).slice (win1_3.rect t)).set ↔ _
  rw [View.set_slice_whole, Rect.mem_set_unit]
  exact Iff.rfl

/-- Every entry (f, n, o) of the array is written: by the point whose block index is (f, n / 2000, 0), since
    2000 (n / 2000) ≤ n < 2000 (n / 2000) + 2000 and o < 256. -/
theorem covered (i : S3x20000x256.Idx) :
    ∃ t : Fin cfg1.N, (cfg1.win 3).flush t = true ∧ i ∈ ((cfg1.win 3).blk t).view.set := by
  have hi0 : (i 0).val < 3 := (i 0).isLt
  have hi1 : (i 1).val < 20000 := (i 1).isLt
  have hi2 : (i 2).val < 256 := (i 2).isLt
  obtain ⟨t, ht⟩ := index_onto ⟨(i 0).val, hi0⟩ ⟨(i 1).val / 2000, by omega⟩
  have q0 : win1_3.index t (0 : Fin 3) = (i 0).val := congrFun ht 0
  have q1 : win1_3.index t (1 : Fin 3) = (i 1).val / 2000 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 2000 ≤ (i 1).val ∧ (i 1).val < win1_3.index t (1 : Fin 3) * 2000 + 2000; omega
  | ⟨2, _⟩ => show win1_3.index t (2 : Fin 3) * 256 ≤ (i 2).val ∧ (i 2).val < win1_3.index t (2 : Fin 3) * 256 + 256; omega

/-- THE WRITTEN ARRAY after the region: at every entry, the gated mix and leaky rectifier of the propagated features,
    the residual and the gate at that entry, for any contents of the three arrays at the region's entry. Every point
    writes its block of that one function (`flushed_eq`) and the blocks cover the array (`covered`). -/
theorem final (c : Dev nD) :
    (dat1 (F := Ideal) V c).arrAt 3 cfg1.N = fun i => leaky (V c main_v47 i) (V c main_v1_1 i) (V c main_v1_2 i) :=
  (dat1 (F := Ideal) V c).arrAt_eq_of_cover 3 (combined V c) (fun t _ => flushed_eq V c t) covered

end Cert.KernelIdeal.Combine

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.Transform.lean ====
/-
  The first grid region, as whole-array functions.

  The region runs over 3 fields by 10 node tiles. At the point of field f and tile i it loads the tile's 2000 rows of
  the node features of field f and the field's three 256 by 256 weight matrices, forms three products of the tile with
  a matrix (each a sum over the 256 input channels; the third passed through the logistic function) and stores each
  product as the tile's 2000 rows of a result array of field f.

  Read at an entry, a product of a tile is the sum over k of tile (r, k) times matrix (k, q): the narrowing of the float
  format is the identity on extended reals and the leading unit axis of a block is dropped and put back. The tile's
  entry (r, k) is the features' entry (f, 2000 i + r, k) and the matrix's entry (k, q) is the weight's entry (f, k, q),
  so what the point writes back is its block of ONE function of the whole arrays; the 30 blocks tile the result array,
  so each result array ends holding that function: at (f, n, o) the sum over k of x(f,n,k) * w(f,k,o).
-/
import proofs.«181050_j77043123356300_2_alg».proof.Proof.Spec
import proofs.«181050_j77043123356300_2_alg».proof.Proof.Gen.KernelIdeal.Frame
import proofs.«181050_j77043123356300_2_alg».proof.Proof.LibMatmulAt
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Transform

open Cert.KernelIdeal Cert.KernelIdeal.Gen Idealize.ShloMosaic Idealize.ShloMosaic.ValueIdx Idealize.ShloMosaic.TcCoe
open Idealize.ShloMosaic.Pipeline (Dat)

/-! ## One product of a node tile with a weight matrix, entry by entry -/

/-- The dimension numbers of the three products: a [2000, 256] tile by a [256, 256] matrix, the tile's second axis
    contracted with the matrix's first. -/
abbrev mm : DotDims S2000x256 S256x256 S2000x256 := dot_S2000x256_S256x256_S2000x256_1_0_0_1_n_n

/-- The left operand's row is the result's row. -/
theorem mm_lhs_row (i : S2000x256.Idx) (q : mm.contr.Idx) : (mm.lhsIdx i q (0 : Fin 2)).val = (i (0 : Fin 2)).val := by
  unfold DotDims.lhsIdx
  rw [dif_neg (show ¬(0 : Fin S2000x256.rank) ∈ mm.lhsBatch by decide),
    dif_pos (show (0 : Fin S2000x256.rank) ∈ mm.lhsNonContracting by decide)]
  rfl
/-- The left operand's column is the contraction position. -/
theorem mm_lhs_col (i : S2000x256.Idx) (q : mm.contr.Idx) : (mm.lhsIdx i q (1 : Fin 2)).val = (q ⟨0, by decide⟩).val :=
  mm.lhsIdx_val_of_single rfl i q
/-- The right operand's row is the contraction position. -/
theorem mm_rhs_row (i : S2000x256.Idx) (q : mm.contr.Idx) : (mm.rhsIdx i q (0 : Fin 2)).val = (q ⟨0, by decide⟩).val :=
  mm.rhsIdx_val_of_single rfl i q
/-- The right operand's column is the result's column. -/
theorem mm_rhs_col (i : S2000x256.Idx) (q : mm.contr.Idx) : (mm.rhsIdx i q (1 : Fin 2)).val = (i (1 : Fin 2)).val := by
  unfold DotDims.rhsIdx
  rw [dif_neg (show ¬(1 : Fin S256x256.rank) ∈ mm.rhsBatch by decide),
    dif_pos (show (1 : Fin S256x256.rank) ∈ mm.rhsNonContracting by decide)]
  rfl

/-- A [1, a, b] block viewed [a, b] reads (0, r, q) at (r, q). -/
theorem dropUnit_at {a b : Nat} {α : Type} (v : (⟨3, ![1, a, b]⟩ : Shape).Idx → α)
    (h : (⟨3, ![1, a, b]⟩ : Shape).ShapeCasts ⟨2, ![a, b]⟩) (r : Fin a) (q : Fin b) :
    shapeCast ⟨2, ![a, b]⟩ v h (ix2 r q) = v (ix3 (0 : Fin 1) r q) :=
  (shapeCast_dropUnit_apply ![a, b] v h (ix2 r q)).trans
    (congrArg v (funext fun d => by match d with | ⟨0, _⟩ => rfl | ⟨1, _⟩ => rfl | ⟨2, _⟩ => rfl))

/-- An [a, b] value stored as a [1, a, b] block reads (r, q) at (0, r, q). -/
theorem addUnit_at {a b : Nat} {α : Type} (v : (⟨2, ![a, b]⟩ : Shape).Idx → α)
    (h : (⟨2, ![a, b]⟩ : Shape).ShapeCasts ⟨3, ![1, a, b]⟩) (r : Fin a) (q : Fin b) :
    shapeCast ⟨3, ![1, a, b]⟩ v h (ix3 (0 : Fin 1) r q) = v (ix2 r q) :=
  (shapeCast_addUnit_apply ![a, b] v h (ix3 (0 : Fin 1) r q)).trans
    (congrArg v (funext fun d => by match d with | ⟨0, _⟩ => rfl | ⟨1, _⟩ => rfl))

/-- The tile the three products share, at (r, k): the loaded block at (0, r, k) (the narrowing of the float format is the
    identity on extended reals). -/
theorem tile_at (v0 : Vec Ideal S1x2000x256 .f32) (r : Fin 2000) (k : Fin 256) :
    k0_pay1 (F := Ideal) v0 (ix2 r k) = v0 (ix3 (0 : Fin 1) r k) := by
  unfold k0_pay1
  exact dropUnit_at v0 shapeCasts_S1x2000x256_S2000x256 r k

/-- A weight block viewed as a matrix, at (k, q): the loaded block at (0, k, q). -/
theorem weight_at (v3 : Vec Ideal S1x256x256 .f32) (k : Fin 256) (q : Fin 256) :
    (truncf .bf16 (shapeCast S256x256 v3 shapeCasts_S1x256x256_S256x256) bitsLt_bf16_f32 : FVec Ideal S256x256 .bf16) (ix2 k q)
      = v3 (ix3 (0 : Fin 1) k q) :=
  dropUnit_at v3 shapeCasts_S1x256x256_S256x256 k q

/-- The product of the tile with a weight matrix into the zero accumulator, at (r, q): the sum over the 256 input
    channels k of block (0, r, k) times weight (0, k, q). -/
theorem product_at (v0 : Vec Ideal S1x2000x256 .f32) (v3 : Vec Ideal S1x256x256 .f32) (r : Fin 2000) (q : Fin 256) :
    matmul mm none (k0_pay1 (F := Ideal) v0)
        (truncf .bf16 (shapeCast S256x256 v3 shapeCasts_S1x256x256_S256x256) bitsLt_bf16_f32 : FVec Ideal S256x256 .bf16)
        (constant S2000x256 .f32 0x00000000#32) (ix2 r q)
      = ∑ k : Fin 256, v0 (ix3 (0 : Fin 1) r k) * v3 (ix3 (0 : Fin 1) k q) :=
  (MatmulAt.matmul_zero_ix2 mm rfl rfl mm_lhs_row mm_lhs_col mm_rhs_row mm_rhs_col none _ _ r q).trans
    (Finset.sum_congr rfl fun k _ => by rw [tile_at, weight_at])

/-- The first payload at (0, r, q). -/
theorem pay2_at (v0 : Vec Ideal S1x2000x256 .f32) (v3 : Vec Ideal S1x256x256 .f32) (r : Fin 2000) (q : Fin 256) :
    k0_pay2 (F := Ideal) v0 v3 (ix3 (0 : Fin 1) r q) = ∑ k : Fin 256, v0 (ix3 (0 : Fin 1) r k) * v3 (ix3 (0 : Fin 1) k q) := by
  unfold k0_pay2
  exact (addUnit_at _ shapeCasts_S2000x256_S1x2000x256 r q).trans (product_at v0 v3 r q)

/-- The second payload at (0, r, q). -/
theorem pay3_at (v0 : Vec Ideal S1x2000x256 .f32) (v6 : Vec Ideal S1x256x256 .f32) (r : Fin 2000) (q : Fin 256) :
    k0_pay3 (F := Ideal) v0 v6 (ix3 (0 : Fin 1) r q) = ∑ k : Fin 256, v0 (ix3 (0 : Fin 1) r k) * v6 (ix3 (0 : Fin 1) k q) := by
  unfold k0_pay3
  exact (addUnit_at _ shapeCasts_S2000x256_S1x2000x256 r q).trans (product_at v0 v6 r q)

/-- The third payload at (0, r, q): the logistic function of the product. -/
theorem pay4_at (v0 : Vec Ideal S1x2000x256 .f32) (v9 : Vec Ideal S1x256x256 .f32) (r : Fin 2000) (q : Fin 256) :
    k0_pay4 (F := Ideal) v0 v9 (ix3 (0 : Fin 1) r q)
      = FloatOps.logistic (F := Ideal) (φ := .f32) (∑ k : Fin 256, v0 (ix3 (0 : Fin 1) r k) * v9 (ix3 (0 : Fin 1) k q)) := by
  unfold k0_pay4
  exact (addUnit_at _ shapeCasts_S2000x256_S1x2000x256 r q).trans
    (congrArg (FloatOps.logistic (F := Ideal) (φ := .f32)) (product_at v0 v9 r q))

/-! ## From the blocks to the arrays -/

variable (V : (c : Dev nD) → (b : Ref sig .tc) → Buf (Elt Ideal) ((c : Thread nD τ).loc b))

theorem hz3 : (![0, 0, 0] : Fin 3 → Nat) = fun _ => 0 := funext fun a => by fin_cases a <;> rfl

/-- The product of the node features with a weight stored input-major, as one function of the array index. -/
def prodArr (x : FVec Ideal Cert.Highway.Nodes .f32) (w : FVec Ideal Cert.Highway.Weights .f32) : S3x20000x256.Idx → EReal :=
  fun i => Cert.Highway.dotAt x w ⟨(i 0).val, (i 0).isLt⟩ ⟨(i 1).val, (i 1).isLt⟩ ⟨(i 2).val, (i 2).isLt⟩

theorem prodArr_ix3 (x : FVec Ideal Cert.Highway.Nodes .f32) (w : FVec Ideal Cert.Highway.Weights .f32) (f : Fin 3) (n : Fin 20000)
    (o : Fin 256) : prodArr x w (ix3 f n o) = Cert.Highway.dotAt x w f n o := rfl

/-- A tile's product entry is the array's. The node tile's entry (0, r, k) sits at (F, B + r, k) of the features, the
    weight block's entry (0, k, q) at (F, k, q) of the weight array and the result tile's entry (0, r, q) at
    (F, B + r, q) of the result array: then the tile's sum over k is the whole-array product at that entry. -/
theorem tile_sum_eq (X : FVec Ideal Cert.Highway.Nodes .f32) (W : FVec Ideal Cert.Highway.Weights .f32)
    (e0 eo : S1x2000x256.Idx → S3x20000x256.Idx) (e1 : S1x256x256.Idx → S3x256x256.Idx) (F B : Nat)
    (h0 : ∀ (r : Fin 2000) (k : Fin 256), (e0 (ix3 (0 : Fin 1) r k) 0).val = F ∧ (e0 (ix3 (0 : Fin 1) r k) 1).val = B + r.val
      ∧ (e0 (ix3 (0 : Fin 1) r k) 2).val = k.val)
    (h1 : ∀ (k q : Fin 256), (e1 (ix3 (0 : Fin 1) k q) 0).val = F ∧ (e1 (ix3 (0 : Fin 1) k q) 1).val = k.val
      ∧ (e1 (ix3 (0 : Fin 1) k q) 2).val = q.val)
    (ho : ∀ (r : Fin 2000) (q : Fin 256), (eo (ix3 (0 : Fin 1) r q) 0).val = F ∧ (eo (ix3 (0 : Fin 1) r q) 1).val = B + r.val
      ∧ (eo (ix3 (0 : Fin 1) r q) 2).val = q.val)
    (r : Fin 2000) (q : Fin 256) :
    ∑ k : Fin 256, X (e0 (ix3 (0 : Fin 1) r k)) * W (e1 (ix3 (0 : Fin 1) k q)) = prodArr X W (eo (ix3 (0 : Fin 1) r q)) := by
  unfold prodArr Cert.Highway.dotAt
  refine Finset.sum_congr rfl fun k _ => ?_
  obtain ⟨a0, a1, a2⟩ := h0 r k
  obtain ⟨b0, b1, b2⟩ := h1 k q
  obtain ⟨c0, c1, c2⟩ := ho r q
  refine congrArg₂ (· * ·) (congrArg X (funext fun a => Fin.ext ?_)) (congrArg W (funext fun a => Fin.ext ?_))
  · match a with
    | ⟨0, _⟩ => exact a0.trans c0.symm
    | ⟨1, _⟩ => exact a1.trans c1.symm
    | ⟨2, _⟩ => exact a2
  · match a with
    | ⟨0, _⟩ => exact b0.trans c0.symm
    | ⟨1, _⟩ => exact b1
    | ⟨2, _⟩ => exact b2.trans c2.symm

/-- The printed index maps, decided once over the grid: the node window and the three result windows sit at block
    (field, tile, 0) and the three weight windows at block (field, 0, 0). -/
theorem idx_facts : ∀ t : Fin cfg0.N, win0_0.index t (2 : Fin 3) = 0
    ∧ (win0_1.index t (0 : Fin 3) = win0_0.index t (0 : Fin 3) ∧ win0_1.index t (1 : Fin 3) = 0 ∧ win0_1.index t (2 : Fin 3) = 0)
    ∧ (win0_2.index t (0 : Fin 3) = win0_0.index t (0 : Fin 3) ∧ win0_2.index t (1 : Fin 3) = 0 ∧ win0_2.index t (2 : Fin 3) = 0)
    ∧ (win0_3.index t (0 : Fin 3) = win0_0.index t (0 : Fin 3) ∧ win0_3.index t (1 : Fin 3) = 0 ∧ win0_3.index t (2 : Fin 3) = 0)
    ∧ (win0_4.index t (0 : Fin 3) = win0_0.index t (0 : Fin 3) ∧ win0_4.index t (1 : Fin 3) = win0_0.index t (1 : Fin 3)
        ∧ win0_4.index t (2 : Fin 3) = 0)
    ∧ (win0_5.index t (0 : Fin 3) = win0_0.index t (0 : Fin 3) ∧ win0_5.index t (1 : Fin 3) = win0_0.index t (1 : Fin 3)
        ∧ win0_5.index t (2 : Fin 3) = 0)
    ∧ (win0_6.index t (0 : Fin 3) = win0_0.index t (0 : Fin 3) ∧ win0_6.index t (1 : Fin 3) = win0_0.index t (1 : Fin 3)
        ∧ win0_6.index t (2 : Fin 3) = 0) :=
  (by decide +kernel : ∀ t : Fin grid0.N, _)

/-- Every (field, tile) pair is some point's. -/
theorem idx_onto : ∀ (f : Fin 3) (i : Fin 10), ∃ t : Fin cfg0.N,
    win0_0.index t (0 : Fin 3) = f.val ∧ win0_0.index t (1 : Fin 3) = i.val :=
  (by decide +kernel : ∀ (f : Fin 3) (i : Fin 10), ∃ t : Fin grid0.N, win0_0.index t (0 : Fin 3) = f.val ∧ win0_0.index t (1 : Fin 3) = i.val)

/-! ### The transformed features (result 0) -/

/-- What point t writes back to the first result is block t of the product with the convolution weight. -/
theorem flushed4_eq (c : Dev nD) (t : Fin cfg0.N) :
    (dat0 (F := Ideal) V c).flushed 4 t
      = ((cfg0.win 4).blk t).view.read (Elt Ideal) (prodArr (V c main_arg0) (V c main_arg3)) := by
  show (cfg0.win 4).cut (grid0.coords t) ((dat0 V c).after 4 t) = _
  rw [after0_4]
  unfold out0_4
  rw [View.canon_unit_zero hz3]
  simp only [View.ld_unit_zero (S := S1x2000x256) hz3, View.ld_unit_zero (S := S1x256x256) hz3]
  show (k0_pay2 (F := Ideal) (iblk0 V c 0 t) (iblk0 V c 1 t) : S1x2000x256.Idx → EReal)
    = fun y : S1x2000x256.Idx => prodArr (V c main_arg0) (V c main_arg3) (((cfg0.win 4).blk t).view.emb y)
  funext y
  obtain ⟨z, r, q, rfl⟩ : ∃ (z : Fin 1) (r : Fin 2000) (q : Fin 256), y = ix3 z r q := ⟨y 0, y 1, y 2, eq_ix3 y⟩
  obtain rfl : z = 0 := Subsingleton.elim _ _
  refine (pay2_at (iblk0 V c 0 t) (iblk0 V c 1 t) r q).trans ?_
  obtain ⟨e02, ⟨e10, e11, e12⟩, -, -, ⟨e40, e41, e42⟩, -, -⟩ := idx_facts t
  refine tile_sum_eq (V c main_arg0) (V c main_arg3) (fun y => ((cfg0.win 0).blk t).view.emb y)
    (fun y => ((cfg0.win 4).blk t).view.emb y) (fun y => ((cfg0.win 1).blk t).view.emb y)
    (win0_0.index t (0 : Fin 3)) (win0_0.index t (1 : Fin 3) * 2000) (fun r k => ⟨?_, ?_, ?_⟩) (fun k q => ⟨?_, ?_, ?_⟩)
    (fun r q => ⟨?_, ?_, ?_⟩) r q
  · show win0_0.index t (0 : Fin 3) * 1 + 1 * 0 = _; omega
  · show win0_0.index t (1 : Fin 3) * 2000 + 1 * r.val = _; omega
  · show win0_0.index t (2 : Fin 3) * 256 + 1 * k.val = _; omega
  · show win0_1.index t (0 : Fin 3) * 1 + 1 * 0 = _; omega
  · show win0_1.index t (1 : Fin 3) * 256 + 1 * k.val = _; omega
  · show win0_1.index t (2 : Fin 3) * 256 + 1 * q.val = _; omega
  · show win0_4.index t (0 : Fin 3) * 1 + 1 * 0 = _; omega
  · show win0_4.index t (1 : Fin 3) * 2000 + 1 * r.val = _; omega
  · show win0_4.index t (2 : Fin 3) * 256 + 1 * q.val = _; omega

/-- An index of the result array is in point t's block iff each coordinate is in the block's range on its axis. -/
theorem mem_blk4 (t : Fin cfg0.N) (i : S3x20000x256.Idx) :
    i ∈ ((cfg0.win 4).blk t).view.set ↔ ∀ a : Fin 3, win0_4.index t a * S1x2000x256.size a ≤ (i a).val
      ∧ (i a).val < win0_4.index t a * S1x2000x256.size a + S1x2000x256.size a := by
  show i ∈ ((View.whole main_v1_0).slice (win0_4.rect t)).set ↔ _
  rw [View.set_slice_whole, Rect.mem_set_unit]
  exact Iff.rfl

/-- Row n of field f is covered by the point of block (f, n / 2000). -/
theorem cover4 (i : S3x20000x256.Idx) :
    ∃ t : Fin cfg0.N, (cfg0.win 4).flush t = true ∧ i ∈ ((cfg0.win 4).blk t).view.set := by
  have hi0 : (i 0).val < 3 := (i 0).isLt
  have hi1 : (i 1).val < 20000 := (i 1).isLt
  have hi2 : (i 2).val < 256 := (i 2).isLt
  obtain ⟨t, ht0, ht1⟩ := idx_onto ⟨(i 0).val, hi0⟩ ⟨(i 1).val / 2000, by omega⟩
  obtain ⟨-, -, -, -, ⟨e40, e41, e42⟩, -, -⟩ := idx_facts t
  have q0 : win0_4.index t (0 : Fin 3) = (i 0).val := e40.trans ht0
  have q1 : win0_4.index t (1 : Fin 3) = (i 1).val / 2000 := e41.trans ht1
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2000 ≤ (i 1).val ∧ (i 1).val < win0_4.index t (1 : Fin 3) * 2000 + 2000; omega
  | ⟨2, _⟩ => show win0_4.index t (2 : Fin 3) * 256 ≤ (i 2).val ∧ (i 2).val < win0_4.index t (2 : Fin 3) * 256 + 256; omega

/-- The first result array after the region: the product of the node features with the convolution weight. -/
theorem array4 (c : Dev nD) :
    (dat0 (F := Ideal) V c).arrAt 4 cfg0.N = prodArr (V c main_arg0) (V c main_arg3) :=
  (dat0 (F := Ideal) V c).arrAt_eq_of_cover 4 (prodArr (V c main_arg0) (V c main_arg3)) (fun t _ => flushed4_eq V c t) cover4

/-- Entry (f, n, o) of the first result array: the sum over the input channels k of x(f,n,k) * Wg(f,k,o). -/
theorem final4 (c : Dev nD) (f : Fin 3) (n : Fin 20000) (o : Fin 256) :
    ((dat0 (F := Ideal) V c).arrAt 4 cfg0.N : S3x20000x256.Idx → EReal) (ix3 f n o)
      = Cert.Highway.dotAt (V c main_arg0) (V c main_arg3) f n o := by
  rw [array4 V c]; rfl

/-! ### The residual branch (result 1) -/

/-- What point t writes back to the second result is block t of the product with the residual weight (input-major). -/
theorem flushed5_eq (c : Dev nD) (t : Fin cfg0.N) :
    (dat0 (F := Ideal) V c).flushed 5 t
      = ((cfg0.win 5).blk t).view.read (Elt Ideal) (prodArr (V c main_arg0) (V c main_v0)) := by
  show (cfg0.win 5).cut (grid0.coords t) ((dat0 V c).after 5 t) = _
  rw [after0_5]
  unfold out0_5
  rw [View.canon_unit_zero hz3]
  simp only [View.ld_unit_zero (S := S1x2000x256) hz3, View.ld_unit_zero (S := S1x256x256) hz3]
  show (k0_pay3 (F := Ideal) (iblk0 V c 0 t) (iblk0 V c 2 t) : S1x2000x256.Idx → EReal)
    = fun y : S1x2000x256.Idx => prodArr (V c main_arg0) (V c main_v0) (((cfg0.win 5).blk t).view.emb y)
  funext y
  obtain ⟨z, r, q, rfl⟩ : ∃ (z : Fin 1) (r : Fin 2000) (q : Fin 256), y = ix3 z r q := ⟨y 0, y 1, y 2, eq_ix3 y⟩
  obtain rfl : z = 0 := Subsingleton.elim _ _
  refine (pay3_at (iblk0 V c 0 t) (iblk0 V c 2 t) r q).trans ?_
  obtain ⟨e02, -, ⟨e10, e11, e12⟩, -, -, ⟨e40, e41, e42⟩, -⟩ := idx_facts t
  refine tile_sum_eq (V c main_arg0) (V c main_v0) (fun y => ((cfg0.win 0).blk t).view.emb y)
    (fun y => ((cfg0.win 5).blk t).view.emb y) (fun y => ((cfg0.win 2).blk t).view.emb y)
    (win0_0.index t (0 : Fin 3)) (win0_0.index t (1 : Fin 3) * 2000) (fun r k => ⟨?_, ?_, ?_⟩) (fun k q => ⟨?_, ?_, ?_⟩)
    (fun r q => ⟨?_, ?_, ?_⟩) r q
  · show win0_0.index t (0 : Fin 3) * 1 + 1 * 0 = _; omega
  · show win0_0.index t (1 : Fin 3) * 2000 + 1 * r.val = _; omega
  · show win0_0.index t (2 : Fin 3) * 256 + 1 * k.val = _; omega
  · show win0_2.index t (0 : Fin 3) * 1 + 1 * 0 = _; omega
  · show win0_2.index t (1 : Fin 3) * 256 + 1 * k.val = _; omega
  · show win0_2.index t (2 : Fin 3) * 256 + 1 * q.val = _; omega
  · show win0_5.index t (0 : Fin 3) * 1 + 1 * 0 = _; omega
  · show win0_5.index t (1 : Fin 3) * 2000 + 1 * r.val = _; omega
  · show win0_5.index t (2 : Fin 3) * 256 + 1 * q.val = _; omega

/-- An index of the result array is in point t's block iff each coordinate is in the block's range on its axis. -/
theorem mem_blk5 (t : Fin cfg0.N) (i : S3x20000x256.Idx) :
    i ∈ ((cfg0.win 5).blk t).view.set ↔ ∀ a : Fin 3, win0_5.index t a * S1x2000x256.size a ≤ (i a).val
      ∧ (i a).val < win0_5.index t a * S1x2000x256.size a + S1x2000x256.size a := by
  show i ∈ ((View.whole main_v1_1).slice (win0_5.rect t)).set ↔ _
  rw [View.set_slice_whole, Rect.mem_set_unit]
  exact Iff.rfl

/-- Row n of field f is covered by the point of block (f, n / 2000). -/
theorem cover5 (i : S3x20000x256.Idx) :
    ∃ t : Fin cfg0.N, (cfg0.win 5).flush t = true ∧ i ∈ ((cfg0.win 5).blk t).view.set := by
  have hi0 : (i 0).val < 3 := (i 0).isLt
  have hi1 : (i 1).val < 20000 := (i 1).isLt
  have hi2 : (i 2).val < 256 := (i 2).isLt
  obtain ⟨t, ht0, ht1⟩ := idx_onto ⟨(i 0).val, hi0⟩ ⟨(i 1).val / 2000, by omega⟩
  obtain ⟨-, -, -, -, -, ⟨e40, e41, e42⟩, -⟩ := idx_facts t
  have q0 : win0_5.index t (0 : Fin 3) = (i 0).val := e40.trans ht0
  have q1 : win0_5.index t (1 : Fin 3) = (i 1).val / 2000 := e41.trans ht1
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 2000 ≤ (i 1).val ∧ (i 1).val < win0_5.index t (1 : Fin 3) * 2000 + 2000; omega
  | ⟨2, _⟩ => show win0_5.index t (2 : Fin 3) * 256 ≤ (i 2).val ∧ (i 2).val < win0_5.index t (2 : Fin 3) * 256 + 256; omega

/-- The second result array after the region: the product of the node features with the residual weight (input-major). -/
theorem array5 (c : Dev nD) :
    (dat0 (F := Ideal) V c).arrAt 5 cfg0.N = prodArr (V c main_arg0) (V c main_v0) :=
  (dat0 (F := Ideal) V c).arrAt_eq_of_cover 5 (prodArr (V c main_arg0) (V c main_v0)) (fun t _ => flushed5_eq V c t) cover5

/-- Entry (f, n, o) of the second result array: the sum over the input channels k of x(f,n,k) * w(f,k,o), w the residual
    weight as the region finds it (input-major). -/
theorem final5 (c : Dev nD) (f : Fin 3) (n : Fin 20000) (o : Fin 256) :
    ((dat0 (F := Ideal) V c).arrAt 5 cfg0.N : S3x20000x256.Idx → EReal) (ix3 f n o)
      = Cert.Highway.dotAt (V c main_arg0) (V c main_v0) f n o := by
  rw [array5 V c]; rfl

/-! ### The gate (result 2) -/

/-- The logistic function of the product of the node features with a weight stored input-major, as one function of the
    array index. -/
def gateArr (x : FVec Ideal Cert.Highway.Nodes .f32) (w : FVec Ideal Cert.Highway.Weights .f32) : S3x20000x256.Idx → EReal :=
  fun i => FloatOps.logistic (F := Ideal) (φ := .f32) (prodArr x w i)

/-- What point t writes back to the third result is block t of the logistic function of the product with the gate weight. -/
theorem flushed6_eq (c : Dev nD) (t : Fin cfg0.N) :
    (dat0 (F := Ideal) V c).flushed 6 t
      = ((cfg0.win 6).blk t).view.read (Elt Ideal) (gateArr (V c main_arg0) (V c main_arg5)) := by
  show (cfg0.win 6).cut (grid0.coords t) ((dat0 V c).after 6 t) = _
  rw [after0_6]
  unfold out0_6
  rw [View.canon_unit_zero hz3]
  simp only [View.ld_unit_zero (S := S1x2000x256) hz3, View.ld_unit_zero (S := S1x256x256) hz3]
  show (k0_pay4 (F := Ideal) (iblk0 V c 0 t) (iblk0 V c 3 t) : S1x2000x256.Idx → EReal)
    = fun y : S1x2000x256.Idx => gateArr (V c main_arg0) (V c main_arg5) (((cfg0.win 6).blk t).view.emb y)
  funext y
  obtain ⟨z, r, q, rfl⟩ : ∃ (z : Fin 1) (r : Fin 2000) (q : Fin 256), y = ix3 z r q := ⟨y 0, y 1, y 2, eq_ix3 y⟩
  obtain rfl : z = 0 := Subsingleton.elim _ _
  refine (pay4_at (iblk0 V c 0 t) (iblk0 V c 3 t) r q).trans ?_
  show FloatOps.logistic (F := Ideal) (φ := .f32) _ = FloatOps.logistic (F := Ideal) (φ := .f32)
    (prodArr (V c main_arg0) (V c main_arg5) (((cfg0.win 6).blk t).view.emb (ix3 (0 : Fin 1) r q)))
  refine congrArg (FloatOps.logistic (F := Ideal) (φ := .f32)) ?_
  obtain ⟨e02, -, -, ⟨e10, e11, e12⟩, -, -, ⟨e40, e41, e42⟩⟩ := idx_facts t
  refine tile_sum_eq (V c main_arg0) (V c main_arg5) (fun y => ((cfg0.win 0).blk t).view.emb y)
    (fun y => ((cfg0.win 6).blk t).view.emb y) (fun y => ((cfg0.win 3).blk t).view.emb y)
    (win0_0.index t (0 : Fin 3)) (win0_0.index t (1 : Fin 3) * 2000) (fun r k => ⟨?_, ?_, ?_⟩) (fun k q => ⟨?_, ?_, ?_⟩)
    (fun r q => ⟨?_, ?_, ?_⟩) r q
  · show win0_0.index t (0 : Fin 3) * 1 + 1 * 0 = _; omega
  · show win0_0.index t (1 : Fin 3) * 2000 + 1 * r.val = _; omega
  · show win0_0.index t (2 : Fin 3) * 256 + 1 * k.val = _; omega
  · show win0_3.index t (0 : Fin 3) * 1 + 1 * 0 = _; omega
  · show win0_3.index t (1 : Fin 3) * 256 + 1 * k.val = _; omega
  · show win0_3.index t (2 : Fin 3) * 256 + 1 * q.val = _; omega
  · show win0_6.index t (0 : Fin 3) * 1 + 1 * 0 = _; omega
  · show win0_6.index t (1 : Fin 3) * 2000 + 1 * r.val = _; omega
  · show win0_6.index t (2 : Fin 3) * 256 + 1 * q.val = _; omega

/-- An index of the result array is in point t's block iff each coordinate is in the block's range on its axis. -/
theorem mem_blk6 (t : Fin cfg0.N) (i : S3x20000x256.Idx) :
    i ∈ ((cfg0.win 6).blk t).view.set ↔ ∀ a : Fin 3, win0_6.index t a * S1x2000x256.size a ≤ (i a).val
      ∧ (i a).val < win0_6.index t a * S1x2000x256.size a + S1x2000x256.size a := by
  show i ∈ ((View.whole main_v1_2).slice (win0_6.rect t)).set ↔ _
  rw [View.set_slice_whole, Rect.mem_set_unit]
  exact Iff.rfl

/-- Row n of field f is covered by the point of block (f, n / 2000). -/
theorem cover6 (i : S3x20000x256.Idx) :
    ∃ t : Fin cfg0.N, (cfg0.win 6).flush t = true ∧ i ∈ ((cfg0.win 6).blk t).view.set := by
  have hi0 : (i 0).val < 3 := (i 0).isLt
  have hi1 : (i 1).val < 20000 := (i 1).isLt
  have hi2 : (i 2).val < 256 := (i 2).isLt
  obtain ⟨t, ht0, ht1⟩ := idx_onto ⟨(i 0).val, hi0⟩ ⟨(i 1).val / 2000, by omega⟩
  obtain ⟨-, -, -, -, -, -, ⟨e40, e41, e42⟩⟩ := idx_facts t
  have q0 : win0_6.index t (0 : Fin 3) = (i 0).val := e40.trans ht0
  have q1 : win0_6.index t (1 : Fin 3) = (i 1).val / 2000 := e41.trans ht1
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 2000 ≤ (i 1).val ∧ (i 1).val < win0_6.index t (1 : Fin 3) * 2000 + 2000; omega
  | ⟨2, _⟩ => show win0_6.index t (2 : Fin 3) * 256 ≤ (i 2).val ∧ (i 2).val < win0_6.index t (2 : Fin 3) * 256 + 256; omega

/-- The third result array after the region: the logistic function of the product of the node features with the gate weight. -/
theorem array6 (c : Dev nD) :
    (dat0 (F := Ideal) V c).arrAt 6 cfg0.N = gateArr (V c main_arg0) (V c main_arg5) :=
  (dat0 (F := Ideal) V c).arrAt_eq_of_cover 6 (gateArr (V c main_arg0) (V c main_arg5)) (fun t _ => flushed6_eq V c t) cover6

/-- Entry (f, n, o) of the third result array: the logistic function of the sum over the input channels k of
    x(f,n,k) * Wh(f,k,o). -/
theorem final6 (c : Dev nD) (f : Fin 3) (n : Fin 20000) (o : Fin 256) :
    ((dat0 (F := Ideal) V c).arrAt 6 cfg0.N : S3x20000x256.Idx → EReal) (ix3 f n o)
      = FloatOps.logistic (F := Ideal) (φ := .f32) (Cert.Highway.dotAt (V c main_arg0) (V c main_arg5) f n o) := by
  rw [array6 V c]; rfl

end Cert.KernelIdeal.Transform

end
-- ==== Proof.Bridge.lean ====
/-
  The kernel program's result is the reference's, as arrays.

  The second region mixes, entry by entry, three arrays it finds at its entry: the propagated features, the residual
  and the gate. The propagated features are the propagation stage applied to the first region's transformed array,
  and that array is, entry by entry, the sum over the input channels of feature times convolution weight: the
  reference's product, so the propagation stages agree as whole arrays without being opened. The residual the first
  region leaves is the same sum against the residual weight transposed to input-major by the host, and reading a
  transposed weight input-major is reading the weight output-major, which is how the reference contracts it. The gate
  the first region leaves is the logistic function of the third sum, and the reference's quotient 1 / (1 + exp (-z))
  is that function. With the three values identified, both sides are the same gated mix and leaky rectifier of them.
-/
import proofs.«181050_j77043123356300_2_alg».proof.Proof.Spec
import proofs.«181050_j77043123356300_2_alg».proof.Proof.HostMid
import proofs.«181050_j77043123356300_2_alg».proof.Proof.RefSide
import proofs.«181050_j77043123356300_2_alg».proof.Proof.Combine
import proofs.«181050_j77043123356300_2_alg».proof.Proof.Transform
import Idealize.ShloMosaic.Lib.ValueLayout

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- A weight transposed to input-major and then read input-major is the weight read output-major: the sum over k of
    x(f,n,k) * wᵀ(f,k,o) is the sum over k of x(f,n,k) * w(f,o,k). -/
theorem dotAt_transpose (x : FVec Ideal Cert.Highway.Nodes .f32) (w : FVec Ideal Cert.Highway.Weights .f32)
    (h : (⟨3, ![3, 256, 256]⟩ : Shape).Transposes [0, 2, 1] ⟨3, ![3, 256, 256]⟩) (f : Fin 3) (n : Fin 20000) (o : Fin 256) :
    Cert.Highway.dotAt x (transpose ⟨3, ![3, 256, 256]⟩ [0, 2, 1] w h) f n o = Cert.Highway.dotTAt x w f n o := by
  unfold Cert.Highway.dotAt Cert.Highway.dotTAt
  refine Finset.sum_congr rfl fun k _ => ?_
  rw [transpose_ix3_021_apply]

/-- The first region's transformed array is the reference's product of the features with the convolution weight. -/
theorem transformed_eq (c : Dev nD) :
    W2 m ρ c (Proc.devRef .tc main_v1_0)
      = Cert.ReferenceIdeal.Read.val_main_v32 (F := Ideal) (m ((c : Thread nD τ).loc main_arg0)) (m ((c : Thread nD τ).loc main_arg3)) := by
  rw [HostMid.exit_transformed]
  funext i
  obtain ⟨f, n, o, rfl⟩ : ∃ (f : Fin 3) (n : Fin 20000) (o : Fin 256), i = ix3 f n o := ⟨i 0, i 1, i 2, eq_ix3 i⟩
  rw [Transform.final4, Cert.ReferenceIdeal.RefSide.transformed_apply, HostMid.entry0_features, HostMid.entry0_conv]

/-- The kernel program's result buffer, at the last stage of its boundary fold, is the reference's last stage of the
    six argument arrays. -/
theorem result_eq (c : Dev nD) :
    W6 m ρ c (Proc.devRef .tc main_v48)
      = Cert.ReferenceIdeal.Read.val_main_v64 (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  refine (W6_arr m ρ c 3).trans ?_
  rw [Combine.final]
  funext i
  obtain ⟨f, n, o, rfl⟩ : ∃ (f : Fin 3) (n : Fin 20000) (o : Fin 256), i = ix3 f n o := ⟨i 0, i 1, i 2, eq_ix3 i⟩
  rw [Cert.ReferenceIdeal.RefSide.result_apply]
  show Cert.Highway.leaky (W5 m ρ c (Proc.devRef .tc main_v47) (ix3 f n o)) (W5 m ρ c (Proc.devRef .tc main_v1_1) (ix3 f n o))
      (W5 m ρ c (Proc.devRef .tc main_v1_2) (ix3 f n o)) = _
  rw [HostMid.entry_propagated, HostMid.entry_residual, HostMid.entry_gate, transformed_eq, HostMid.exit_edges, HostMid.exit_weights,
    ← Cert.ReferenceIdeal.RefValue.val_main_v46_eq_propagate, HostMid.exit_residual, HostMid.exit_gate, Transform.final5, Transform.final6,
    HostMid.entry0_features, HostMid.entry0_residual, HostMid.entry0_gate, dotAt_transpose]

end Cert.KernelIdeal.Bridge

end
-- ==== Proof.lean ====
/-
  A graph-convolution highway layer computed by two grid kernels with host operations between them, against the same
  layer written with whole-array operations.

  The first kernel forms, tile of nodes by tile, three products of the node features with a weight matrix of the
  field (the convolution's, the residual's, transposed beforehand by the host, and the gate's, the last through the
  logistic function). The host then propagates the first product along the normalised edges, and the second kernel
  mixes the propagated features and the residual by the gate and applies the leaky rectifier. The reference computes
  the same three products as contractions of the whole arrays, the gate as the quotient 1 / (1 + exp (-z)), the same
  propagation, and the same mix and rectifier.

  On the extended reals a matrix product is the plain sum over the contracted channel however it is tiled, a change of
  float format is the identity, reading a transposed weight input-major is reading the weight output-major, and the
  logistic function is that quotient on every extended real: so the two programs' results are equal entry by entry.
  No law used needs a finite operand, and the precondition is never opened. The idealization pass rewrote nothing, so
  what it preserves is trivially preserved. Each program runs to the end without a fault and leaves its arguments as
  they were: the two kernel programs by their launch over the grid regions and the host stretches, the reference by
  its run as a list of host operations.
-/
import proofs.«181050_j77043123356300_2_alg».proof.Defs
import proofs.«181050_j77043123356300_2_alg».proof.Proof.Gen.Kernel
import proofs.«181050_j77043123356300_2_alg».proof.Proof.Gen.Kernel.Skeleton
import proofs.«181050_j77043123356300_2_alg».proof.Proof.Gen.Kernel.Launch
import proofs.«181050_j77043123356300_2_alg».proof.Proof.Gen.Kernel.Points
import proofs.«181050_j77043123356300_2_alg».proof.Proof.Gen.Kernel.Frame
import proofs.«181050_j77043123356300_2_alg».proof.Proof.Gen.KernelIdeal
import proofs.«181050_j77043123356300_2_alg».proof.Proof.Gen.KernelIdeal.Skeleton
import proofs.«181050_j77043123356300_2_alg».proof.Proof.Gen.KernelIdeal.Launch
import proofs.«181050_j77043123356300_2_alg».proof.Proof.Gen.KernelIdeal.Points
import proofs.«181050_j77043123356300_2_alg».proof.Proof.Gen.KernelIdeal.Frame
import proofs.«181050_j77043123356300_2_alg».proof.Proof.Gen.ReferenceIdeal
import proofs.«181050_j77043123356300_2_alg».proof.Proof.Gen.ReferenceIdeal.Run
import proofs.«181050_j77043123356300_2_alg».proof.Proof.Gen.ReferenceIdeal.Read
import proofs.«181050_j77043123356300_2_alg».proof.Proof.Gen.Pre_finite_inputs
import proofs.«181050_j77043123356300_2_alg».proof.Proof.KernelRun
import proofs.«181050_j77043123356300_2_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs to the end and leaves its arguments unchanged. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- The reference is a list of host operations: its run ends with every argument as launched. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization pass rewrote no operation. -/
theorem preserves : Cert.preserves_Kernel_KernelIdeal := trivial

/-- From memories that agree on the six arguments both programs run to the end with equal results: the kernel
    program's result buffer ends at the last stage of its boundary fold, the reference's at the last stage of its
    operations, and the two are one array of the arguments. -/
theorem algebraic : Cert.algebraic_KernelIdeal_ReferenceIdeal := by
  intro m ρ m' ρ' _ hagree
  refine ⟨fun c => Cert.KernelIdeal.Gen.W6 m ρ c (Proc.devRef .tc Cert.KernelIdeal.main_v48),
    Cert.KernelIdeal.ValueRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v64_eq, (hagree c).1, (hagree c).2.1, (hagree c).2.2.1, (hagree c).2.2.2.1,
    (hagree c).2.2.2.2.1, (hagree c).2.2.2.2.2]
  exact (Cert.KernelIdeal.Bridge.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
